-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x512 : Shape := ⟨3, ![1024, 128, 512]⟩
abbrev S512x512 : Shape := ⟨2, ![512, 512]⟩
abbrev S1x512 : Shape := ⟨2, ![1, 512]⟩
abbrev S_ : Shape := ⟨0, ![]⟩

class Facts : Prop where
  bcast_S_S1024x128x512 : S_.BroadcastsInDim S1024x128x512 (![] : Fin 0 → Fin S1024x128x512.rank)
  reducesTo_S1024x128x512_S_d0_1_2 : S1024x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S1024x128x512 .f32) (main_arg1 : FVec F S512x512 .f32) (main_arg2 : FVec F S1x512 .f32) : IVec S_ 1 :=
  let main_v0 : FVec F S1024x128x512 .f32 := Host.absf main_arg0
  let main_cst : FVec F S_ .f32 := constant S_ .f32 0x7F800000#32
  let main_v1 : FVec F S1024x128x512 .f32 := broadcastInDim S1024x128x512 ![] bcast_S_S1024x128x512 main_cst
  let main_v2 : IVec S1024x128x512 1 := cmpf .olt main_v0 main_v1
  let main_c : IVec S_ 1 := constantI S_ 1 1#1
  let main_v3 : IVec S_ 1 := (fun x v => Host.reduce IntOp.andi x v reducesTo_S1024x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Kernel.lean ====
abbrev S1024x128x512 : Shape := ⟨3, ![1024, 128, 512]⟩
abbrev S512x512 : Shape := ⟨2, ![512, 512]⟩
abbrev S1x512 : Shape := ⟨2, ![1, 512]⟩
abbrev S1024x2x64x512 : Shape := ⟨4, ![1024, 2, 64, 512]⟩
abbrev S_ : Shape := ⟨0, ![]⟩
abbrev S1024x512 : Shape := ⟨2, ![1024, 512]⟩
abbrev S64x1x64x512 : Shape := ⟨4, ![64, 1, 64, 512]⟩
abbrev S64x512 : Shape := ⟨2, ![64, 512]⟩
abbrev S16x1x64x512 : Shape := ⟨4, ![16, 1, 64, 512]⟩
abbrev S16x64x512 : Shape := ⟨3, ![16, 64, 512]⟩
abbrev S16x512 : Shape := ⟨2, ![16, 512]⟩

abbrev nBuf : Space → Nat
  | .hbm => 11
  | .vmem => 8
  | .smem => 0
  | _ => 0

abbrev bufTy : (tb : Table) → Fin (tcTables nBuf tb) → BufTy
  | .hbm, ⟨0, _⟩ => ⟨S1024x128x512, .f32⟩
  | .hbm, ⟨1, _⟩ => ⟨S512x512, .f32⟩
  | .hbm, ⟨2, _⟩ => ⟨S1x512, .f32⟩
  | .hbm, ⟨3, _⟩ => ⟨S1024x2x64x512, .f32⟩
  | .hbm, ⟨4, _⟩ => ⟨S_, .i32⟩
  | .hbm, ⟨5, _⟩ => ⟨S_, .f32⟩
  | .hbm, ⟨6, _⟩ => ⟨S512x512, .f32⟩
  | .hbm, ⟨7, _⟩ => ⟨S_, .i32⟩
  | .hbm, ⟨8, _⟩ => ⟨S_, .f32⟩
  | .hbm, ⟨9, _⟩ => ⟨S1x512, .f32⟩
  | .hbm, ⟨10, _⟩ => ⟨S1024x512, .f32⟩
  | .local _ .vmem, ⟨0, _⟩ => ⟨S64x1x64x512, .f32⟩
  | .local _ .vmem, ⟨1, _⟩ => ⟨S64x1x64x512, .f32⟩
  | .local _ .vmem, ⟨2, _⟩ => ⟨S64x1x64x512, .f32⟩
  | .local _ .vmem, ⟨3, _⟩ => ⟨S64x1x64x512, .f32⟩
  | .local _ .vmem, ⟨4, _⟩ => ⟨S512x512, .f32⟩
  | .local _ .vmem, ⟨5, _⟩ => ⟨S1x512, .f32⟩
  | .local _ .vmem, ⟨6, _⟩ => ⟨S64x512, .f32⟩
  | .local _ .vmem, ⟨7, _⟩ => ⟨S64x512, .f32⟩
  | _, _ => ⟨S1024x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x128x512_S1024x2x64x512 : S1024x128x512.ShapeCasts S1024x2x64x512
  pads_S512x512_S512x512_000_000 : S512x512.Pads (![0, 0] : Fin 2 → Nat) ![0, 0] ![0, 0] S512x512
  h_S_ : 0 < S_.numel
  pads_S1x512_S1x512_000_000 : S1x512.Pads (![0, 0] : Fin 2 → Nat) ![0, 0] ![0, 0] S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S64x1x64x512_S16x1x64x512_0_0_0_0 : ∀ a, (![0, 0, 0, 0] : Fin 4 → Nat) a + S16x1x64x512.size a ≤ S64x1x64x512.size a
  h_S16x1x64x512 : 0 < S16x1x64x512.numel
  shapeCasts_S16x1x64x512_S16x64x512 : S16x1x64x512.ShapeCasts S16x64x512
  shapeCasts_S16x64x512_S1024x512 : S16x64x512.ShapeCasts S1024x512
  shapeCasts_S1024x512_S16x64x512 : S1024x512.ShapeCasts S16x64x512
  reduces_S16x64x512_S16x512 : S16x64x512.Reduces [1] S16x512
  broadcasts_S1x512_S16x512 : S1x512.Broadcasts S16x512
  inb_S64x512_S16x512_0_0 : ∀ a, (![0, 0] : Fin 2 → Nat) a + S16x512.size a ≤ S64x512.size a
  h_S16x512 : 0 < S16x512.numel
  inb_S64x1x64x512_S16x1x64x512_16_0_0_0 : ∀ a, (![16, 0, 0, 0] : Fin 4 → Nat) a + S16x1x64x512.size a ≤ S64x1x64x512.size a
  inb_S64x512_S16x512_16_0 : ∀ a, (![16, 0] : Fin 2 → Nat) a + S16x512.size a ≤ S64x512.size a
  inb_S64x1x64x512_S16x1x64x512_32_0_0_0 : ∀ a, (![32, 0, 0, 0] : Fin 4 → Nat) a + S16x1x64x512.size a ≤ S64x1x64x512.size a
  inb_S64x512_S16x512_32_0 : ∀ a, (![32, 0] : Fin 2 → Nat) a + S16x512.size a ≤ S64x512.size a
  inb_S64x1x64x512_S16x1x64x512_48_0_0_0 : ∀ a, (![48, 0, 0, 0] : Fin 4 → Nat) a + S16x1x64x512.size a ≤ S64x1x64x512.size a
  inb_S64x512_S16x512_48_0 : ∀ a, (![48, 0] : Fin 2 → Nat) a + S16x512.size a ≤ S64x512.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x64x512.size a ≤ S1024x2x64x512.size a
  hwx0_0 : ∀ i : grid0.Coords, EltTy.bits .f32 = 32 ∨ (Rect.block (s := S1024x2x64x512) S64x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x64x512.size a ≤ S1024x2x64x512.size a
  hwx0_1 : ∀ i : grid0.Coords, EltTy.bits .f32 = 32 ∨ (Rect.block (s := S1024x2x64x512) S64x1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S1024x512.size a
  hwx0_4 : ∀ i : grid0.Coords, EltTy.bits .f32 = 32 ∨ (Rect.block (s := S1024x512) S64x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S64x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128x512 : Shape := ⟨3, ![1024, 128, 512]⟩
abbrev S512x512 : Shape := ⟨2, ![512, 512]⟩
abbrev S1x512 : Shape := ⟨2, ![1, 512]⟩
abbrev S_ : Shape := ⟨0, ![]⟩
abbrev S1024x512 : Shape := ⟨2, ![1024, 512]⟩
abbrev S8x128x512 : Shape := ⟨3, ![8, 128, 512]⟩
abbrev S8x512 : Shape := ⟨2, ![8, 512]⟩
abbrev S1x64x512 : Shape := ⟨3, ![1, 64, 512]⟩
abbrev S64x512 : Shape := ⟨2, ![64, 512]⟩

abbrev nBuf : Space → Nat
  | .hbm => 10
  | .vmem => 6
  | .smem => 0
  | _ => 0

abbrev bufTy : (tb : Table) → Fin (tcTables nBuf tb) → BufTy
  | .hbm, ⟨0, _⟩ => ⟨S1024x128x512, .f32⟩
  | .hbm, ⟨1, _⟩ => ⟨S512x512, .f32⟩
  | .hbm, ⟨2, _⟩ => ⟨S1x512, .f32⟩
  | .hbm, ⟨3, _⟩ => ⟨S_, .i32⟩
  | .hbm, ⟨4, _⟩ => ⟨S_, .f32⟩
  | .hbm, ⟨5, _⟩ => ⟨S512x512, .f32⟩
  | .hbm, ⟨6, _⟩ => ⟨S_, .i32⟩
  | .hbm, ⟨7, _⟩ => ⟨S_, .f32⟩
  | .hbm, ⟨8, _⟩ => ⟨S1x512, .f32⟩
  | .hbm, ⟨9, _⟩ => ⟨S1024x512, .f32⟩
  | .local _ .vmem, ⟨0, _⟩ => ⟨S8x128x512, .f32⟩
  | .local _ .vmem, ⟨1, _⟩ => ⟨S8x128x512, .f32⟩
  | .local _ .vmem, ⟨2, _⟩ => ⟨S512x512, .f32⟩
  | .local _ .vmem, ⟨3, _⟩ => ⟨S1x512, .f32⟩
  | .local _ .vmem, ⟨4, _⟩ => ⟨S8x512, .f32⟩
  | .local _ .vmem, ⟨5, _⟩ => ⟨S8x512, .f32⟩
  | _, _ => ⟨S1024x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![128, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S512x512_S512x512_000_000 : S512x512.Pads (![0, 0] : Fin 2 → Nat) ![0, 0] ![0, 0] S512x512
  h_S_ : 0 < S_.numel
  pads_S1x512_S1x512_000_000 : S1x512.Pads (![0, 0] : Fin 2 → Nat) ![0, 0] ![0, 0] S1x512
  inb_S8x512_S8x512_0_0 : ∀ a, (![0, 0] : Fin 2 → Nat) a + S8x512.size a ≤ S8x512.size a
  h_S8x512 : 0 < S8x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8x128x512_S1x64x512_0_0_0 : ∀ a, (![0, 0, 0] : Fin 3 → Nat) a + S1x64x512.size a ≤ S8x128x512.size a
  h_S1x64x512 : 0 < S1x64x512.numel
  shapeCasts_S1x64x512_S64x512 : S1x64x512.ShapeCasts S64x512
  shapeCasts_S64x512_S1x64x512 : S64x512.ShapeCasts S1x64x512
  reduces_S1x64x512_S1x512 : S1x64x512.Reduces [1] S1x512
  inb_S8x512_S1x512_0_0 : ∀ a, (![0, 0] : Fin 2 → Nat) a + S1x512.size a ≤ S8x512.size a
  h_S1x512 : 0 < S1x512.numel
  shapeCasts_S1x512_S1x512 : S1x512.ShapeCasts S1x512
  inb_S8x128x512_S1x64x512_0_64_0 : ∀ a, (![0, 64, 0] : Fin 3 → Nat) a + S1x64x512.size a ≤ S8x128x512.size a
  inb_S8x128x512_S1x64x512_1_0_0 : ∀ a, (![1, 0, 0] : Fin 3 → Nat) a + S1x64x512.size a ≤ S8x128x512.size a
  inb_S8x512_S1x512_1_0 : ∀ a, (![1, 0] : Fin 2 → Nat) a + S1x512.size a ≤ S8x512.size a
  inb_S8x128x512_S1x64x512_1_64_0 : ∀ a, (![1, 64, 0] : Fin 3 → Nat) a + S1x64x512.size a ≤ S8x128x512.size a
  inb_S8x128x512_S1x64x512_2_0_0 : ∀ a, (![2, 0, 0] : Fin 3 → Nat) a + S1x64x512.size a ≤ S8x128x512.size a
  inb_S8x512_S1x512_2_0 : ∀ a, (![2, 0] : Fin 2 → Nat) a + S1x512.size a ≤ S8x512.size a
  inb_S8x128x512_S1x64x512_2_64_0 : ∀ a, (![2, 64, 0] : Fin 3 → Nat) a + S1x64x512.size a ≤ S8x128x512.size a
  inb_S8x128x512_S1x64x512_3_0_0 : ∀ a, (![3, 0, 0] : Fin 3 → Nat) a + S1x64x512.size a ≤ S8x128x512.size a
  inb_S8x512_S1x512_3_0 : ∀ a, (![3, 0] : Fin 2 → Nat) a + S1x512.size a ≤ S8x512.size a
  inb_S8x128x512_S1x64x512_3_64_0 : ∀ a, (![3, 64, 0] : Fin 3 → Nat) a + S1x64x512.size a ≤ S8x128x512.size a
  inb_S8x128x512_S1x64x512_4_0_0 : ∀ a, (![4, 0, 0] : Fin 3 → Nat) a + S1x64x512.size a ≤ S8x128x512.size a
  inb_S8x512_S1x512_4_0 : ∀ a, (![4, 0] : Fin 2 → Nat) a + S1x512.size a ≤ S8x512.size a
  inb_S8x128x512_S1x64x512_4_64_0 : ∀ a, (![4, 64, 0] : Fin 3 → Nat) a + S1x64x512.size a ≤ S8x128x512.size a
  inb_S8x128x512_S1x64x512_5_0_0 : ∀ a, (![5, 0, 0] : Fin 3 → Nat) a + S1x64x512.size a ≤ S8x128x512.size a
  inb_S8x512_S1x512_5_0 : ∀ a, (![5, 0] : Fin 2 → Nat) a + S1x512.size a ≤ S8x512.size a
  inb_S8x128x512_S1x64x512_5_64_0 : ∀ a, (![5, 64, 0] : Fin 3 → Nat) a + S1x64x512.size a ≤ S8x128x512.size a
  inb_S8x128x512_S1x64x512_6_0_0 : ∀ a, (![6, 0, 0] : Fin 3 → Nat) a + S1x64x512.size a ≤ S8x128x512.size a
  inb_S8x512_S1x512_6_0 : ∀ a, (![6, 0] : Fin 2 → Nat) a + S1x512.size a ≤ S8x512.size a
  inb_S8x128x512_S1x64x512_6_64_0 : ∀ a, (![6, 64, 0] : Fin 3 → Nat) a + S1x64x512.size a ≤ S8x128x512.size a
  inb_S8x128x512_S1x64x512_7_0_0 : ∀ a, (![7, 0, 0] : Fin 3 → Nat) a + S1x64x512.size a ≤ S8x128x512.size a
  inb_S8x512_S1x512_7_0 : ∀ a, (![7, 0] : Fin 2 → Nat) a + S1x512.size a ≤ S8x512.size a
  inb_S8x128x512_S1x64x512_7_64_0 : ∀ a, (![7, 64, 0] : Fin 3 → Nat) a + S1x64x512.size a ≤ S8x128x512.size a
  shapeCasts_S8x512_S8x512 : S8x512.ShapeCasts S8x512
  inb_S1x512_S1x512_0_0 : ∀ a, (![0, 0] : Fin 2 → Nat) a + S1x512.size a ≤ S1x512.size a
  broadcasts_S1x512_S8x512 : S1x512.Broadcasts S8x512
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S1024x128x512.size a
  hwx0_0 : ∀ i : grid0.Coords, EltTy.bits .f32 = 32 ∨ (Rect.block (s := S1024x128x512) S8x128x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S1024x512.size a
  hwx0_3 : ∀ i : grid0.Coords, EltTy.bits .f32 = 32 ∨ (Rect.block (s := S1024x512) S8x512.size (cc0_transform_3 i) (hinb0_3 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_arg0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.KRunBits.lean ====
/-
  The body of the pooling kernel run once, on any whole staging buffers: it loads the weight, the bias and, for
  each of four bands of 16 sequences, the band's 64 rows from each of the two halves of the sequence axis, and
  stores one 16 × 512 band of the output block per band. The run is stated with the list of pieces the four
  stores leave in the output's staging buffer as its witness; the two input halves, the weight and the bias are
  handed back as they were found.
-/
import proofs.«136681_g2000706673400859_pallasbulk_1295_21_alg».proof.Proof.Gen.Kernel.Launch
import proofs.«136681_g2000706673400859_pallasbulk_1295_21_alg».proof.Proof.Gen.Kernel.Skeleton
import proofs.«136681_g2000706673400859_pallasbulk_1295_21_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents and the windows' blocks -/

/-- Core `c`'s buffers when the region is entered: the launch memory after the host operations before it (the
    reshape of the batch to two halves of 64 rows, and the two paddings of zero width). -/
abbrev V (c : Dev nD) (b : Ref sig .tc) : Buf (Elt F) ((c : Thread nD τ).loc b) :=
  StableHlo.after (List.flatten [hostOps0, hostOps0_1, hostOps0_2, hostOps0_3]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the output window, through which its contents are stated. -/
abbrev VO0_4 : View sig .tc .vmem S64x512 .f32 := (Memref.whole cc0_stg4_0 : Memref sig .tc .vmem S64x512 .f32).view
/-- Each window's current staging buffer at point `t`, as the pipeline passes it to the body, and its wholeness. -/
abbrev ms0_0 (t : Fin cfg0.N) : Memref sig .tc .vmem S64x1x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .f32 := win0_4.stage (cfg0.slots t 4)
abbrev hs0_4 (t : Fin cfg0.N) : (ms0_4 t).IsWhole := hstage0_4 ((cfg0.slots t 4).cast nbuf0_4)

/-! ## The body's run -/

set_option maxHeartbeats 1000000 in
/-- What the body's four stores leave in the output's staging buffer, as pieces (last first), with the proof that
    on whole staging buffers — the inputs' at their contents, the output's at anything — the body runs to a
    continuation that holds the inputs' buffers as they were and the output's with the pieces written. -/
noncomputable def kernelRun0 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .f32) (x3 : Vec F S1x512 .f32) :
    { L4 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KDatBits.lean ====
/-
  What the pooling kernel's output block holds after the body at each grid point, and the pipeline's proof data:
  the four stored bands tile the 64 × 512 block, so the block is their read-back; the two halves of the sequence
  axis are two windows on ONE array, each holding half of its share.
-/
import proofs.«136681_g2000706673400859_pallasbulk_1295_21_alg».proof.Proof.KRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stored bands (each 16 × 512) tile the output block. -/
theorem cover0_4 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .f32) (x3 : Vec F S1x512 .f32) (y : S64x512.Idx) :
    ∃ pc ∈ (kernelRun0 c i arg1 harg1 arg2 harg2 arg3 harg3 arg4 harg4 arg5 harg5 x0 x1 x2 x3).1, y ∈ pc.1.set :=
  View.cover_of_tiledBy (kernelRun0 c i arg1 harg1 arg2 harg2 arg3 harg3 arg4 harg4 arg5 harg5 x0 x1 x2 x3).1 ![16, 512] (by sl_kernel_rfl) y

/-- What the run leaves in the output's staging buffer: its pieces read back. -/
def out0_4 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .f32) (x3 : Vec F S1x512 .f32) : Vec F S64x512 .f32 :=
  VO0_4.read (Elt F) (VO0_4.writes (Elt F) VO0_4.junk (kernelRun0 c i arg1 harg1 arg2 harg2 arg3 harg3 arg4 harg4 arg5 harg5 x0 x1 x2 x3).1)

/-- What the output's staging buffer holds after the body at point `t`: the run's contents at the point's buffers
    and input blocks. -/
def outsAt0 (c : Dev nD) (t : Fin cfg0.N) : Vec F S64x512 .f32 :=
  out0_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-- The proof data of the pipeline on core `c`: the arrays as the region finds them; after the body each input's
    buffer at its block and the output's at `outsAt0`; the two windows on the batch array hold the left and the right
    half of its share, every other window its array's full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

end Cert.Kernel.Hand

end
-- ==== Proof.KBodyBits.lean ====
/-
  The pooling kernel's body at every grid point: each input window's current staging buffer holds the window's
  block there (fetched at that point, or — the weight and the bias — fetched once at the first point and left in
  place since), so the body's run applies; the four stored bands tile the output block, so the block ends at their
  read-back. This is the pipeline's body obligation for the proof data.
-/
import proofs.«136681_g2000706673400859_pallasbulk_1295_21_alg».proof.Proof.KDatBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the input windows' staging buffers hold when the body runs -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, nothing owed, and each window's current staging
    buffer whole — the four inputs' at what the pipeline left there, the output's at anything. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' buffers hold their blocks, so the run applies; the invariant passes through
    unread; the core owes nothing throughout; the output's buffer ends at the read-back of the four stored bands,
    which tile it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KMainBits.lean ====
/-
  The pooling kernel's @main up to the region: a reshape of the batch and two paddings of zero width, none of which
  writes an argument of @main, then the region and the return.
-/
import proofs.«136681_g2000706673400859_pallasbulk_1295_21_alg».proof.Proof.KBodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the region: the lines of host operations, then the region and the return, the unscoped buffers
    then at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Kernel.Hand

end
-- ==== Proof.KLaunchBits.lean ====
/-
  The pooling kernel's launch: how the buffers behind the windows' arrays make the pipeline's arrays — the batch
  array is read by two input windows, which hold the two halves of its share —, the run of @main to the frame post,
  and the frame.
-/
import proofs.«136681_g2000706673400859_pallasbulk_1295_21_alg».proof.Proof.KMainBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The distinct buffers behind the five windows' arrays: the batch (read by windows 0 and 1), the weight, the
    bias and the output. -/
theorem arrImage0 : Finset.univ.image (Pipeline.arrRef spec0) = [main_v0, main_v1, main_v2, main_v3].toFinset := by decide

/-- The buffers behind the arrays, each whole at the full share, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  unfold Pipeline.arrBufs
  exact bigSep_eq_bigSepL_of_eq [main_v0, main_v1, main_v2, main_v3] arrImage0 (by decide) _

/-- The buffers behind the arrays, each whole at the full share at the entry contents, make the pipeline's arrays:
    the batch's full share is the left half, held by window 0, and the right half, held by window 1; the weight,
    the bias and the output are each one window's, at the full share. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  simp only [View.set_whole]
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  have ha : ∀ w, (dats m 0 c).arrAt w 0 = V m c (Pipeline.arrRef spec0 w) := fun w => A_eq m c w
  rw [hs0, hs1, hs2, hs3, hs4, ha 0, ha 1, ha 2, ha 3, ha 4]
  iintro ⟨H0, H1, H2, H3⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

/-! ## The run and the frame -/

set_option backward.isDefEq.respectTransparency.types false in
/-- At the compiled mesh, for any values, from any memory with zero counters: every weakly fair execution of @main on
    the TensorCores terminates, and every final state has every window's array at what the library computes from
    the proof data and every other unscoped buffer as the region found it. The launch hands the invariant the
    generator register and the scoped buffers that are no staging buffer; the unscoped buffers that are no window's
    array bypass the region and are read back at the end. -/
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (hbody := fun c => (body_obligation m c).loose)
    (hne := block_pos0) (harr := arr_whole0) (hstage := stage_whole0) (howed := fun _ _ => rfl)
    (G := fun _ => iprop(emp))
    (u₀ := initOf (Pipeline.cells cfgs cellOf_inj) (Pipeline.launchToks cfgs cellOf_inj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2.2⟩)

/-- The frame: no host operation before the region writes an argument of @main, no window's array is one, so the
    region's bypassing buffers — the three arguments among them — end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Hand

end
-- ==== Proof.KRunIdeal.lean ====
/-
  The body of the pooling kernel run once, on any whole staging buffers: it loads the weight, the bias and, for
  each of four bands of 16 sequences, the band's 64 rows from each of the two halves of the sequence axis, and
  stores one 16 × 512 band of the output block per band. The run is stated with the list of pieces the four
  stores leave in the output's staging buffer as its witness; the two input halves, the weight and the bias are
  handed back as they were found.
-/
import proofs.«136681_g2000706673400859_pallasbulk_1295_21_alg».proof.Proof.Gen.KernelIdeal.Launch
import proofs.«136681_g2000706673400859_pallasbulk_1295_21_alg».proof.Proof.Gen.KernelIdeal.Skeleton
import proofs.«136681_g2000706673400859_pallasbulk_1295_21_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents and the windows' blocks -/

/-- Core `c`'s buffers when the region is entered: the launch memory after the host operations before it (the
    reshape of the batch to two halves of 64 rows, and the two paddings of zero width). -/
abbrev V (c : Dev nD) (b : Ref sig .tc) : Buf (Elt F) ((c : Thread nD τ).loc b) :=
  StableHlo.after (List.flatten [hostOps0, hostOps0_1, hostOps0_2, hostOps0_3]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the output window, through which its contents are stated. -/
abbrev VO0_4 : View sig .tc .vmem S64x512 .f32 := (Memref.whole cc0_stg4_0 : Memref sig .tc .vmem S64x512 .f32).view
/-- Each window's current staging buffer at point `t`, as the pipeline passes it to the body, and its wholeness. -/
abbrev ms0_0 (t : Fin cfg0.N) : Memref sig .tc .vmem S64x1x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .f32 := win0_4.stage (cfg0.slots t 4)
abbrev hs0_4 (t : Fin cfg0.N) : (ms0_4 t).IsWhole := hstage0_4 ((cfg0.slots t 4).cast nbuf0_4)

/-! ## The body's run -/

set_option maxHeartbeats 1000000 in
/-- What the body's four stores leave in the output's staging buffer, as pieces (last first), with the proof that
    on whole staging buffers — the inputs' at their contents, the output's at anything — the body runs to a
    continuation that holds the inputs' buffers as they were and the output's with the pieces written. -/
noncomputable def kernelRun0 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .f32) (x3 : Vec F S1x512 .f32) :
    { L4 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KDatIdeal.lean ====
/-
  What the pooling kernel's output block holds after the body at each grid point, and the pipeline's proof data:
  the four stored bands tile the 64 × 512 block, so the block is their read-back; the two halves of the sequence
  axis are two windows on ONE array, each holding half of its share.
-/
import proofs.«136681_g2000706673400859_pallasbulk_1295_21_alg».proof.Proof.KRunIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four stored bands (each 16 × 512) tile the output block. -/
theorem cover0_4 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .f32) (x3 : Vec F S1x512 .f32) (y : S64x512.Idx) :
    ∃ pc ∈ (kernelRun0 c i arg1 harg1 arg2 harg2 arg3 harg3 arg4 harg4 arg5 harg5 x0 x1 x2 x3).1, y ∈ pc.1.set :=
  View.cover_of_tiledBy (kernelRun0 c i arg1 harg1 arg2 harg2 arg3 harg3 arg4 harg4 arg5 harg5 x0 x1 x2 x3).1 ![16, 512] (by sl_kernel_rfl) y

/-- What the run leaves in the output's staging buffer: its pieces read back. -/
def out0_4 (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 : Vec F S64x1x64x512 .f32) (x1 : Vec F S64x1x64x512 .f32) (x2 : Vec F S512x512 .f32) (x3 : Vec F S1x512 .f32) : Vec F S64x512 .f32 :=
  VO0_4.read (Elt F) (VO0_4.writes (Elt F) VO0_4.junk (kernelRun0 c i arg1 harg1 arg2 harg2 arg3 harg3 arg4 harg4 arg5 harg5 x0 x1 x2 x3).1)

/-- What the output's staging buffer holds after the body at point `t`: the run's contents at the point's buffers
    and input blocks. -/
def outsAt0 (c : Dev nD) (t : Fin cfg0.N) : Vec F S64x512 .f32 :=
  out0_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)

/-- The proof data of the pipeline on core `c`: the arrays as the region finds them; after the body each input's
    buffer at its block and the output's at `outsAt0`; the two windows on the batch array hold the left and the right
    half of its share, every other window its array's full share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

end Cert.KernelIdeal.Hand

end
-- ==== Proof.LibRowLanes.lean ====
/-
  A few layout operations on small-rank arrays read at an index given by coordinates, over generic extents:
  a rank-3 array cut along its last axis; rows grouped or ungrouped by a shape cast ([a, b, c] ↔ [a·b, c], and
  [a, b·2… ] in the form [a, n, c] → [a, b, s, c] with n = b·s); a unit axis in second or third place dropped.
  Each is the library's general lemma with the row-major arithmetic done once.
-/
import Idealize.ShloMosaic.Lib.Pipeline.Value
import Idealize.ShloMosaic.Lib.ValueIdx

namespace RowLanes

open Idealize.ShloMosaic Idealize.ShloMosaic.ValueIdx

variable {α : Type}

/-- A rank-3 array cut along axis 2 from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- `[a, b, c] → [n, c]` with `n = a·b`: row `i·b + j` is entry `(i, j)`. -/
theorem cast_abc_nc {n a b c : ℕ} (x : (⟨3, ![a, b, c]⟩ : Shape).Idx → α)
    (h : (⟨3, ![a, b, c]⟩ : Shape).ShapeCasts ⟨2, ![n, c]⟩) (i : Fin a) (j : Fin b) (l : Fin c)
    (hlt : i.val * b + j.val < n) :
    shapeCast ⟨2, ![n, c]⟩ x h (ix2 ⟨i.val * b + j.val, hlt⟩ l) = x (ix3 i j l) :=
  shapeCast_apply x h _ _ (by
    rw [Shape.rowMajor_val_three, Shape.rowMajor_val_two]
    show (i.val * b + j.val) * c + l.val = (i.val * b + j.val) * c + l.val
    rfl)

/-- `[a, 1, b, c] → [a, b, c]`: entry `(i, j, l)` is entry `(i, 0, j, l)`. -/
theorem cast_a1bc_abc {a b c : ℕ} (x : (⟨4, ![a, 1, b, c]⟩ : Shape).Idx → α)
    (h : (⟨4, ![a, 1, b, c]⟩ : Shape).ShapeCasts ⟨3, ![a, b, c]⟩) (i : Fin a) (j : Fin b) (l : Fin c) :
    shapeCast ⟨3, ![a, b, c]⟩ x h (ix3 i j l) = x (ix4 i (0 : Fin 1) j l) :=
  shapeCast_apply x h _ _ (by
    rw [Shape.rowMajor_val_four, Shape.rowMajor_val_three]
    show ((i.val * 1 + 0) * b + j.val) * c + l.val = (i.val * b + j.val) * c + l.val
    rw [Nat.mul_one, Nat.add_zero])

/-- `[a, b, 1, c] → [a, b, c]`: entry `(i, j, l)` is entry `(i, j, 0, l)`. -/
theorem cast_ab1c_abc {a b c : ℕ} (x : (⟨4, ![a, b, 1, c]⟩ : Shape).Idx → α)
    (h : (⟨4, ![a, b, 1, c]⟩ : Shape).ShapeCasts ⟨3, ![a, b, c]⟩) (i : Fin a) (j : Fin b) (l : Fin c) :
    shapeCast ⟨3, ![a, b, c]⟩ x h (ix3 i j l) = x (ix4 i j (0 : Fin 1) l) :=
  shapeCast_apply x h _ _ (by
    rw [Shape.rowMajor_val_four, Shape.rowMajor_val_three]
    show ((i.val * b + j.val) * 1 + 0) * c + l.val = (i.val * b + j.val) * c + l.val
    rw [Nat.mul_one, Nat.add_zero])

/-- `[a, n, c] → [a, b, s, c]` with `n = b·s`: entry `(i, j, u, l)` is row `j·s + u` of image `i`. -/
theorem cast_anc_absc {a n b s c : ℕ} (x : (⟨3, ![a, n, c]⟩ : Shape).Idx → α)
    (h : (⟨3, ![a, n, c]⟩ : Shape).ShapeCasts ⟨4, ![a, b, s, c]⟩) (hn : n = b * s)
    (i : Fin a) (j : Fin b) (u : Fin s) (l : Fin c) (hlt : j.val * s + u.val < n) :
    shapeCast ⟨4, ![a, b, s, c]⟩ x h (ix4 i j u l) = x (ix3 i ⟨j.val * s + u.val, hlt⟩ l) :=
  shapeCast_apply x h _ _ (by
    rw [Shape.rowMajor_val_three, Shape.rowMajor_val_four]
    show (i.val * n + (j.val * s + u.val)) * c + l.val = ((i.val * b + j.val) * s + u.val) * c + l.val
    subst hn
    ring)

end RowLanes
-- ==== Proof.LibMidAxis.lean ====
/-
  A rank-3 array whose middle axis is summed away, and a rank-2 array viewed as a rank-3 one by splitting its rows
  into groups, each read at coordinates.

  `sum_abc_1`: a sum over the middle axis of an `[a, b, c]` array, at `(i, l)`, is the sum over `k` of the entries
  `(i, k, l)`.  `cast_nc_abc`: an `[n, c]` array cast to `[a, b, c]` (so `n = a * b`) reads, at `(i, j, l)`, row
  `i * b + j` and column `l` of the operand: group `i` is `b` consecutive rows.  Generic extents; indices are built
  from coordinates.
-/
import Idealize.ShloMosaic.Lib.Pipeline.Value
import Idealize.ShloMosaic.Lib.ValueIdx
import Idealize.ShloMosaic.PureOps.Ideal.Laws

namespace MidAxis

open Idealize.ShloMosaic Idealize.ShloMosaic.ValueIdx

/-- The middle axis of three, summed. -/
theorem sum_abc_1 {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ k : Fin b, src (ix3 i k l) :=
  (Ideal.multiReduction_add_single src acc h hφ hacc (ix2 i l)).trans
    (Finset.sum_congr rfl fun k _ => congrArg src (funext fun ax => Fin.ext (by
      match ax with | ⟨0, _⟩ => rfl | ⟨1, _⟩ => rfl | ⟨2, _⟩ => rfl)))

/-- Rows split into groups: `[n, c] → [a, b, c]` reads row `i * b + j`. -/
theorem cast_nc_abc {α : Type} {n a b c : ℕ} (x : (⟨2, ![n, c]⟩ : Shape).Idx → α)
    (h : (⟨2, ![n, c]⟩ : Shape).ShapeCasts ⟨3, ![a, b, c]⟩) (i : Fin a) (j : Fin b) (l : Fin c)
    (hlt : i.val * b + j.val < n) :
    shapeCast ⟨3, ![a, b, c]⟩ x h (ix3 i j l) = x (ix2 ⟨i.val * b + j.val, hlt⟩ l) :=
  shapeCast_apply x h _ _ (by
    rw [Shape.rowMajor_val_two, Shape.rowMajor_val_three]
    rfl)

end MidAxis
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibMaxMid.lean ====
/-
  A rank-3 array whose middle axis is maximised away, read at coordinates: a `maximumf` reduction of an
  `[a, b, c]` array along axis 1, at `(i, l)`, is the fold of `max` from the accumulator's value over the
  entries `(i, k, l)`; from the pattern of -∞ it is the supremum of those entries.  Also the supremum over
  `m + n` positions as the join of the suprema over the first `m` and the last `n`.  Generic extents.
-/
import Idealize.ShloMosaic.Lib.ValueIdx
import Idealize.ShloMosaic.PureOps.Ideal.Laws

noncomputable section

namespace MaxMid

open Idealize.ShloMosaic Idealize.ShloMosaic.ValueIdx

/-- A fold of `max` from the bottom element is the supremum. -/
theorem fold_max_bot {n : Nat} (f : Fin n → EReal) : (Finset.univ : Finset (Fin n)).fold max ⊥ f = Finset.univ.sup f := by
  unfold Finset.sup
  first
    | rfl
    | (congr 1; funext a b; exact (sup_eq_max (a := a) (b := b)).symm)

/-- The f32 pattern of -∞ is the bottom extended real. -/
theorem ofBits_neg_inf_f32 : Ideal.ofBits .f32 0xFF800000#32 = (⊥ : EReal) := by
  simp [Ideal.ofBits, Ideal.ieee]

/-- The middle axis of three, maximised: the fold of `max` from the accumulator's value over that axis. -/
theorem max_abc_1 {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (l : Fin c) :
    multiReduction .maximumf [1] ⟨2, ![a, c]⟩ src acc h hφ hacc (ix2 i l)
      = (Finset.univ : Finset (Fin b)).fold max (Ideal.ofBits φ acc) (fun k => src (ix3 i k l)) := by
  rw [Ideal.multiReduction_maximumf_single]
  have e : (src ∘ h.lift (ix2 i l)) = fun k : Fin b => src (ix3 i k l) := funext fun k => congrArg src (funext fun ax => Fin.ext (by
    match ax with | ⟨0, _⟩ => rfl | ⟨1, _⟩ => rfl | ⟨2, _⟩ => rfl))
  exact congrArg (fun f => Finset.fold max (Ideal.ofBits φ acc) f (Finset.univ : Finset (Fin b))) e

/-- The supremum over `m + n` positions is the join of the suprema over the first `m` and over the last `n`. -/
theorem sup_add {m n : ℕ} (f : Fin (m + n) → EReal) :
    Finset.univ.sup f = max (Finset.univ.sup fun i : Fin m => f (Fin.castAdd n i)) (Finset.univ.sup fun j : Fin n => f (Fin.natAdd m j)) := by
  apply le_antisymm
  · refine Finset.sup_le fun x _ => ?_
    refine Fin.addCases (fun i => ?_) (fun j => ?_) x
    · exact le_max_of_le_left (Finset.le_sup (f := fun i : Fin m => f (Fin.castAdd n i)) (Finset.mem_univ i))
    · exact le_max_of_le_right (Finset.le_sup (f := fun j : Fin n => f (Fin.natAdd m j)) (Finset.mem_univ j))
  · refine max_le (Finset.sup_le fun i _ => ?_) (Finset.sup_le fun j _ => ?_)
    · exact Finset.le_sup (f := f) (Finset.mem_univ _)
    · exact Finset.le_sup (f := f) (Finset.mem_univ _)

end MaxMid

end
-- ==== Proof.LibHalfBand.lean ====
/-
  A batch of `a` groups of `b` rows of `c` features against a `c × q` matrix, maximised over the rows of each
  group, as programs spell it: the `[a, b, c]` array is flattened to `[a·b, c]`, multiplied onto the zero
  accumulator, the `[a·b, q]` product regrouped to `[a, b, q]` and its middle axis maximised from -∞.  At `(i, j)`
  this is the supremum over the rows `l` of group `i` of the row's product with column `j`:

      sup over l of  ∑ k, x (i, l, k) · w (k, j).

  Generic extents; indices are built from coordinates.
-/
import Idealize.ShloMosaic.Lib.Pipeline.Value
import Idealize.ShloMosaic.Lib.ValueIdx
import Idealize.ShloMosaic.PureOps.Ideal.Laws
import proofs.«136681_g2000706673400859_pallasbulk_1295_21_alg».proof.Proof.LibRowLanes
import proofs.«136681_g2000706673400859_pallasbulk_1295_21_alg».proof.Proof.LibMidAxis
import proofs.«136681_g2000706673400859_pallasbulk_1295_21_alg».proof.Proof.LibMatProd
import proofs.«136681_g2000706673400859_pallasbulk_1295_21_alg».proof.Proof.LibDot2
import proofs.«136681_g2000706673400859_pallasbulk_1295_21_alg».proof.Proof.LibMaxMid

noncomputable section

open scoped BigOperators

namespace HalfBand

open Idealize.ShloMosaic Idealize.ShloMosaic.ValueIdx

/-- Flatten, multiply onto zero, regroup, maximise the middle axis from -∞: the supremum over a group's rows of the
    row's product with a column. -/
theorem rowsMax_apply {a b c q n : ℕ} (x : FVec Ideal ⟨3, ![a, b, c]⟩ .f32) (w : FVec Ideal ⟨2, ![c, q]⟩ .f32)
    (d : DotDims (⟨2, ![n, c]⟩ : Shape) (⟨2, ![c, q]⟩ : Shape) (⟨2, ![n, q]⟩ : Shape))
    (h1 : d.lhsContracting = [1]) (h2 : d.rhsContracting = [0]) (h3 : d.lhsNonContracting = [0])
    (h4 : d.rhsNonContracting = [1]) (h5 : d.lhsBatch = []) (h6 : d.rhsBatch = [])
    (hc1 : (⟨3, ![a, b, c]⟩ : Shape).ShapeCasts ⟨2, ![n, c]⟩) (hc2 : (⟨2, ![n, q]⟩ : Shape).ShapeCasts ⟨3, ![a, b, q]⟩)
    (hr : (⟨3, ![a, b, q]⟩ : Shape).Reduces [1] ⟨2, ![a, q]⟩) (hφ : FKind.Formats .f32)
    (hacc : (0xFF800000#32 : BitVec 32) = FKind.maximumf.neutral .f32 hφ) (hn : n = a * b) (i : Fin a) (j : Fin q) :
    multiReduction .maximumf [1] ⟨2, ![a, q]⟩
        (shapeCast ⟨3, ![a, b, q]⟩ (matmul d none (shapeCast ⟨2, ![n, c]⟩ x hc1) w (constant (F := Ideal) ⟨2, ![n, q]⟩ .f32 0x00000000#32)) hc2)
        0xFF800000#32 hr hφ hacc (ix2 i j)
      = Finset.univ.sup fun l : Fin b => ∑ k : Fin c, x (ix3 i l k) * w (ix2 k j) := by
  have hlt : ∀ l : Fin b, i.val * b + l.val < n := fun l => by
    subst hn
    calc i.val * b + l.val < i.val * b + b := Nat.add_lt_add_left l.isLt _
      _ = (i.val + 1) * b := by ring
      _ ≤ a * b := Nat.mul_le_mul_right _ i.isLt
  have h0 : 0 < d.contr.rank := by rw [Dot2.rank_contr d h1]; exact Nat.one_pos
  rw [MaxMid.max_abc_1, MaxMid.ofBits_neg_inf_f32, MaxMid.fold_max_bot]
  refine congrArg (Finset.sup Finset.univ) (funext fun l => ?_)
  rw [MidAxis.cast_nc_abc _ hc2 i l j (hlt l)]
  refine (MatProd.matmul_zero_entry d none (Dot2.rank_contr d h1) (Dot2.size_contr d h1 h0)
    (Dot2.lhs0 d h3 h5) (Dot2.lhs1 d h1 h0) (Dot2.rhs0 d h2 h0) (Dot2.rhs1 d h3 h4 h5 h6) _ w ⟨i.val * b + l.val, hlt l⟩ j).trans ?_
  unfold MatProd.entry
  refine Finset.sum_congr rfl fun k _ => ?_
  rw [RowLanes.cast_abc_nc x hc1 i l k (hlt l)]

end HalfBand

end
-- ==== Proof.KBlock.lean ====
/-
  The pooling kernel's output block as a function of the blocks it loads, at the ideal values.  The body handles
  four bands of 16 sequences; for each band it takes, from each of the two halves of the sequence axis, the
  supremum over the half's 64 rows of the row's product with the weight, joins the two by `max`, adds the bias row
  and clamps below at zero.  Entry (r, j) of the 64 × 512 block is therefore

      max ( max (sup_l Σ_k x₀(r,0,l,k)·w(k,j)) (sup_l Σ_k x₁(r,0,l,k)·w(k,j)) + bias(0,j) , 0 ).
-/
import proofs.«136681_g2000706673400859_pallasbulk_1295_21_alg».proof.Proof.KDatIdeal
import proofs.«136681_g2000706673400859_pallasbulk_1295_21_alg».proof.Proof.LibHalfBand
import Idealize.ShloMosaic.Lib.ValueLayout

set_option maxRecDepth 16384

noncomputable section

open scoped BigOperators

namespace Cert.KernelIdeal.Block

open Cert.KernelIdeal Cert.KernelIdeal.Gen
open Idealize.ShloMosaic Idealize.ShloMosaic.ValueIdx

/-- One half of one band: 16 sequences' 64 rows against the weight, maximised over the rows. -/
def half (w : FVec Ideal S512x512 .f32) (xa : FVec Ideal S16x1x64x512 .f32) : FVec Ideal S16x512 .f32 :=
  multiReduction .maximumf [1] S16x512
    (shapeCast S16x64x512
      (matmul dot_S1024x512_S512x512_S1024x512_1_0_0_1_n_n none
        (shapeCast S1024x512 (shapeCast S16x64x512 xa shapeCasts_S16x1x64x512_S16x64x512) shapeCasts_S16x64x512_S1024x512)
        w (constant S1024x512 .f32 0x00000000#32))
      shapeCasts_S1024x512_S16x64x512)
    0xFF800000#32 reduces_S16x64x512_S16x512 (.inl rfl) rfl

/-- The two halves joined, shifted by the bias row, clamped at zero. -/
def fin (b : FVec Ideal S1x512 .f32) (ma mb : FVec Ideal S16x512 .f32) : FVec Ideal S16x512 .f32 :=
  maximumf (addf (maximumf ma mb) (broadcastTo S16x512 b broadcasts_S1x512_S16x512))
    (broadcast S16x512 (Scalar.ofBits (F := Ideal) .f32 0x00000000#32))

/-! ## The four stored bands are `fin` of two `half`s -/

theorem pay4_eq (v0 : FVec Ideal S512x512 .f32) (v2 : FVec Ideal S1x512 .f32) (v4 v10 : FVec Ideal S16x1x64x512 .f32) :
    k0_pay4 v0 v2 v4 v10 = fin v2 (half v0 v4) (half v0 v10) := by
  unfold k0_pay4 k0_pay2 k0_pay3 fin half
  dsimp only
  rw [shapeCast_self, shapeCast_self]

theorem pay6_eq (v0 : FVec Ideal S512x512 .f32) (v2 : FVec Ideal S1x512 .f32) (v22 v28 : FVec Ideal S16x1x64x512 .f32) :
    k0_pay6 (k0_pay2 v0) (k0_pay3 v2) (k0_pay5 v0 v22) v28 = fin v2 (half v0 v22) (half v0 v28) := by
  unfold k0_pay6 k0_pay5 k0_pay2 k0_pay3 fin half
  dsimp only
  rw [shapeCast_self, shapeCast_self]

theorem pay7_eq (v0 : FVec Ideal S512x512 .f32) (v2 : FVec Ideal S1x512 .f32) (v40 v46 : FVec Ideal S16x1x64x512 .f32) :
    k0_pay7 (k0_pay2 v0) (k0_pay3 v2) v40 v46 = fin v2 (half v0 v40) (half v0 v46) := by
  unfold k0_pay7 k0_pay2 k0_pay3 fin half
  dsimp only
  rw [shapeCast_self, shapeCast_self]

theorem pay1_eq (v0 : FVec Ideal S512x512 .f32) (v2 : FVec Ideal S1x512 .f32) (v58 v64 : FVec Ideal S16x1x64x512 .f32) :
    k0_pay1 (k0_pay2 v0) (k0_pay3 v2) (k0_pay8 (k0_pay2 v0) v58) v64 = fin v2 (half v0 v58) (half v0 v64) := by
  unfold k0_pay1 k0_pay8 k0_pay2 k0_pay3 fin half
  dsimp only
  rw [shapeCast_self, shapeCast_self]

/-! ## Read at an entry -/

theorem half_apply (w : FVec Ideal S512x512 .f32) (xa : FVec Ideal S16x1x64x512 .f32) (r : Fin 16) (j : Fin 512) :
    half w xa (ix2 r j) = Finset.univ.sup fun l : Fin 64 => ∑ k : Fin 512, xa (ix4 r (0 : Fin 1) l k) * w (ix2 k j) := by
  unfold half
  refine (HalfBand.rowsMax_apply (a := 16) (b := 64) (c := 512) (q := 512) (n := 1024)
    (shapeCast S16x64x512 xa shapeCasts_S16x1x64x512_S16x64x512) w
    dot_S1024x512_S512x512_S1024x512_1_0_0_1_n_n rfl rfl rfl rfl rfl rfl
    shapeCasts_S16x64x512_S1024x512 shapeCasts_S1024x512_S16x64x512 reduces_S16x64x512_S16x512 (.inl rfl) rfl rfl r j).trans ?_
  refine congrArg (Finset.sup Finset.univ) (funext fun l => Finset.sum_congr rfl fun k _ => ?_)
  rw [RowLanes.cast_a1bc_abc xa shapeCasts_S16x1x64x512_S16x64x512 r l k]

theorem fin_apply (b : FVec Ideal S1x512 .f32) (ma mb : FVec Ideal S16x512 .f32) (r : Fin 16) (j : Fin 512) :
    fin b ma mb (ix2 r j) = max (max (ma (ix2 r j)) (mb (ix2 r j)) + b (ix2 (0 : Fin 1) j)) 0 := by
  unfold fin
  rw [maximumf_apply, addf_apply, maximumf_apply, broadcastTo_1b_ab_apply b broadcasts_S1x512_S16x512 r j, broadcast_apply]
  congr 1
  exact Ideal.ofBits_zero_f32

end Cert.KernelIdeal.Block

end
-- ==== Proof.KValue.lean ====
/-
  The pooling kernel's output block, entry by entry, from the blocks it loads.  The four stored bands of 16 rows tile
  the 64 × 512 block, and band `o` (rows o … o+15) is computed from rows o … o+15 of the two loaded halves, so the whole
  block is ONE function of the loaded blocks:

      block (r, j) = max ( max (sup_l Σ_k x₀(r,0,l,k)·w(k,j)) (sup_l Σ_k x₁(r,0,l,k)·w(k,j)) + bias(0,j) , 0 ).
-/
import proofs.«136681_g2000706673400859_pallasbulk_1295_21_alg».proof.Proof.KBlock

set_option maxRecDepth 16384

noncomputable section

open scoped BigOperators

namespace Cert.KernelIdeal.Hand

open Cert.KernelIdeal Cert.KernelIdeal.Gen Cert.KernelIdeal.Block
open Idealize.ShloMosaic Idealize.ShloMosaic.TcCoe Idealize.ShloMosaic.Tactic Idealize.ShloMosaic.ValueIdx
open Idealize.SL.Sem

/-- Entry (r, j) of the block, from the two loaded halves, the weight and the bias row. -/
def blockAt (x0 x1 : FVec Ideal S64x1x64x512 .f32) (x2 : FVec Ideal S512x512 .f32) (x3 : FVec Ideal S1x512 .f32)
    (r : Fin 64) (j : Fin 512) : EReal :=
  max (max (Finset.univ.sup fun l : Fin 64 => ∑ k : Fin 512, x0 (ix4 r (0 : Fin 1) l k) * x2 (ix2 k j))
        (Finset.univ.sup fun l : Fin 64 => ∑ k : Fin 512, x1 (ix4 r (0 : Fin 1) l k) * x2 (ix2 k j))
      + x3 (ix2 (0 : Fin 1) j)) 0

/-- The block as an array. -/
def blockG (x0 x1 : FVec Ideal S64x1x64x512 .f32) (x2 : FVec Ideal S512x512 .f32) (x3 : FVec Ideal S1x512 .f32) :
    S64x512.Idx → EReal := fun y => blockAt x0 x1 x2 x3 ⟨(y 0).val, idx2_lt0 y⟩ ⟨(y 1).val, idx2_lt1 y⟩

theorem blockG_ix2 (x0 x1 : FVec Ideal S64x1x64x512 .f32) (x2 : FVec Ideal S512x512 .f32) (x3 : FVec Ideal S1x512 .f32)
    (r : Fin 64) (j : Fin 512) : blockG x0 x1 x2 x3 (ix2 r j) = blockAt x0 x1 x2 x3 r j := rfl

theorem hz2 : (![0, 0] : Fin 2 → Nat) = fun _ => 0 := funext fun a => by fin_cases a <;> rfl

/-- Band `o`: the rows o … o+15 of the block come from the rows o … o+15 of the two halves. -/
theorem band_piece (o : ℕ) (inb2 : ∀ a, (![o, 0] : Fin 2 → ℕ) a + (![16, 512] : Fin 2 → ℕ) a ≤ S64x512.size a)
    (inb4 : ∀ a, (![o, 0, 0, 0] : Fin 4 → ℕ) a + (![16, 1, 64, 512] : Fin 4 → ℕ) a ≤ S64x1x64x512.size a)
    (x0 x1 : FVec Ideal S64x1x64x512 .f32) (x2 : FVec Ideal S512x512 .f32) (x3 : FVec Ideal S1x512 .f32)
    (x : (Rect.unit (s := S64x512) ![o, 0] ![16, 512] inb2).shape.Idx) :
    fin x3 (half x2 (View.ld (Val := Elt Ideal) (e' := .f32) x0 (Rect.unit (s := S64x1x64x512) ![o, 0, 0, 0] ![16, 1, 64, 512] inb4)))
        (half x2 (View.ld (Val := Elt Ideal) (e' := .f32) x1 (Rect.unit (s := S64x1x64x512) ![o, 0, 0, 0] ![16, 1, 64, 512] inb4))) x
      = blockG x0 x1 x2 x3 ((Rect.unit (s := S64x512) ![o, 0] ![16, 512] inb2).emb x) := by
  obtain ⟨p, q, rfl⟩ : ∃ (p : Fin 16) (q : Fin 512), x = ix2 p q := ⟨x 0, x 1, eq_ix2 x⟩
  have h0 : o + 16 ≤ 64 := inb2 0
  have hp : o + p.val < 64 := by have := p.isLt; omega
  have hE : (Rect.unit (s := S64x512) ![o, 0] ![16, 512] inb2).emb (ix2 p q) = ix2 (⟨o + p.val, hp⟩ : Fin 64) q :=
    funext fun a => Fin.ext (by
      match a with
      | ⟨0, _⟩ => show o + 1 * p.val = o + p.val; omega
      | ⟨1, _⟩ => show 0 + 1 * q.val = q.val; omega)
  rw [hE, blockG_ix2, fin_apply, half_apply, half_apply]
  unfold blockAt
  have e : ∀ (xx : FVec Ideal S64x1x64x512 .f32) (l : Fin 64) (k : Fin 512),
      View.ld (Val := Elt Ideal) (e' := .f32) xx (Rect.unit (s := S64x1x64x512) ![o, 0, 0, 0] ![16, 1, 64, 512] inb4) (ix4 p (0 : Fin 1) l k)
        = xx (ix4 (⟨o + p.val, hp⟩ : Fin 64) (0 : Fin 1) l k) := fun xx l k =>
    congrArg xx (funext fun a => Fin.ext (by
      match a with
      | ⟨0, _⟩ => show o + 1 * p.val = o + p.val; omega
      | ⟨1, _⟩ => rfl
      | ⟨2, _⟩ => show 0 + 1 * l.val = l.val; omega
      | ⟨3, _⟩ => show 0 + 1 * k.val = k.val; omega))
  have e0 : ∀ xx : FVec Ideal S64x1x64x512 .f32,
      (fun l : Fin 64 => ∑ k : Fin 512,
          View.ld (Val := Elt Ideal) (e' := .f32) xx (Rect.unit (s := S64x1x64x512) ![o, 0, 0, 0] ![16, 1, 64, 512] inb4) (ix4 p (0 : Fin 1) l k) * x2 (ix2 k q))
        = fun l : Fin 64 => ∑ k : Fin 512, xx (ix4 (⟨o + p.val, hp⟩ : Fin 64) (0 : Fin 1) l k) * x2 (ix2 k q) :=
    fun xx => funext fun l => Finset.sum_congr rfl fun k _ => congrArg (· * x2 (ix2 k q)) (e xx l k)
  rw [e0 x0, e0 x1]

set_option maxRecDepth 65536 in
/-- THE BLOCK: what the body leaves in the output's staging buffer is `blockG` of the blocks it loaded. -/
theorem out0_4_eq (c : Dev nD) (i : grid0.Coords) (arg1 : Memref sig .tc .vmem S64x1x64x512 .f32) (harg1 : arg1.IsWhole) (arg2 : Memref sig .tc .vmem S64x1x64x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S64x512 .f32) (harg5 : arg5.IsWhole)
    (x0 x1 : FVec Ideal S64x1x64x512 .f32) (x2 : FVec Ideal S512x512 .f32) (x3 : FVec Ideal S1x512 .f32) :
    out0_4 (F := Ideal) c i arg1 harg1 arg2 harg2 arg3 harg3 arg4 harg4 arg5 harg5 x0 x1 x2 x3 = blockG x0 x1 x2 x3 := by
  funext y
  have hc := cover0_4 (F := Ideal) c i arg1 harg1 arg2 harg2 arg3 harg3 arg4 harg4 arg5 harg5 x0 x1 x2 x3 y
  unfold out0_4
  rw [View.read_writes_apply_eq_canon _ _ _ _ hc]
  revert hc
  unfold kernelRun0
  dsimp only
  sl_unfold_words
  simp only [View.readAt_eq_ld, harg1.read_unread, harg2.read_unread, harg3.read_unread, harg4.read_unread]
  rw [View.ld_unit_zero (S := S512x512) hz2, View.ld_unit_zero (S := S1x512) hz2, pay1_eq, pay7_eq, pay6_eq, pay4_eq]
  intro hc
  refine View.canon_apply_of_pieces (Val := Elt Ideal) (S := S64x512) (e := .f32) (blockG x0 x1 x2 x3) _ ?_ y ?_
  swap; · exact hc
  intro pc hpc x
  simp only [List.mem_cons, List.mem_singleton, List.not_mem_nil, or_false] at hpc
  rcases hpc with rfl | rfl | rfl | rfl
  · exact band_piece 48 Cert.KernelIdeal.Gen.inb_S64x512_S16x512_48_0 Cert.KernelIdeal.Gen.inb_S64x1x64x512_S16x1x64x512_48_0_0_0 x0 x1 x2 x3 x
  · exact band_piece 32 Cert.KernelIdeal.Gen.inb_S64x512_S16x512_32_0 Cert.KernelIdeal.Gen.inb_S64x1x64x512_S16x1x64x512_32_0_0_0 x0 x1 x2 x3 x
  · exact band_piece 16 Cert.KernelIdeal.Gen.inb_S64x512_S16x512_16_0 Cert.KernelIdeal.Gen.inb_S64x1x64x512_S16x1x64x512_16_0_0_0 x0 x1 x2 x3 x
  · exact band_piece 0 Cert.KernelIdeal.Gen.inb_S64x512_S16x512_0_0 Cert.KernelIdeal.Gen.inb_S64x1x64x512_S16x1x64x512_0_0_0_0 x0 x1 x2 x3 x

end Cert.KernelIdeal.Hand

end
-- ==== Proof.KHost.lean ====
/-
  What the pooling kernel's windows find in their arrays when the region is entered: the batch regrouped into two
  halves of 64 rows per sequence, and the weight and the bias, each padded by nothing, as they were passed.
-/
import proofs.«136681_g2000706673400859_pallasbulk_1295_21_alg».proof.Proof.KRunIdeal
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The batch array as the region finds it: the argument with each sequence's 128 rows regrouped as 2 × 64. -/
theorem V_main_v0 (c : Dev nD) :
    (V m c main_v0 : S1024x2x64x512.Idx → Elt F .f32)
      = shapeCast S1024x2x64x512 (m ((c : Thread nD τ).loc main_arg0)) shapeCasts_S1024x128x512_S1024x2x64x512 := by
  dsimp only [V]
  simp only [hostOps0, hostOps0_1, hostOps0_2, hostOps0_3, List.flatten_cons, List.flatten_nil, List.append_nil, List.cons_append, List.nil_append]
  after_results
  rfl

/-- The weight array as the region finds it: a padding of zero width, so the argument itself. -/
theorem V_main_v1 (c : Dev nD) :
    (V m c main_v1 : S512x512.Idx → Elt F .f32) = m ((c : Thread nD τ).loc main_arg1) := by
  dsimp only [V]
  simp only [hostOps0, hostOps0_1, hostOps0_2, hostOps0_3, List.flatten_cons, List.flatten_nil, List.append_nil, List.cons_append, List.nil_append]
  after_results
  funext j
  refine (pad_apply_of_inside (![0, 0] : Fin 2 → Nat) ![0, 0] ![0, 0] (m ((c : Thread nD τ).loc main_arg1)) _ pads_S512x512_S512x512_000_000 h_S_ j j fun a => ?_)
  match a with
  | ⟨0, _⟩ => show (j 0).val = 0 + (j 0).val * (0 + 1); omega
  | ⟨1, _⟩ => show (j 1).val = 0 + (j 1).val * (0 + 1); omega

/-- The bias array as the region finds it: likewise the argument itself. -/
theorem V_main_v2 (c : Dev nD) :
    (V m c main_v2 : S1x512.Idx → Elt F .f32) = m ((c : Thread nD τ).loc main_arg2) := by
  dsimp only [V]
  simp only [hostOps0, hostOps0_1, hostOps0_2, hostOps0_3, List.flatten_cons, List.flatten_nil, List.append_nil, List.cons_append, List.nil_append]
  after_results
  funext j
  refine (pad_apply_of_inside (![0, 0] : Fin 2 → Nat) ![0, 0] ![0, 0] (m ((c : Thread nD τ).loc main_arg2)) _ pads_S1x512_S1x512_000_000 h_S_ j j fun a => ?_)
  match a with
  | ⟨0, _⟩ => show (j 0).val = 0 + (j 0).val * (0 + 1); omega
  | ⟨1, _⟩ => show (j 1).val = 0 + (j 1).val * (0 + 1); omega

end Cert.KernelIdeal.Hand

end
-- ==== Proof.KBodyIdeal.lean ====
/-
  The pooling kernel's body at every grid point: each input window's current staging buffer holds the window's
  block there (fetched at that point, or — the weight and the bias — fetched once at the first point and left in
  place since), so the body's run applies; the four stored bands tile the output block, so the block ends at their
  read-back. This is the pipeline's body obligation for the proof data.
-/
import proofs.«136681_g2000706673400859_pallasbulk_1295_21_alg».proof.Proof.KDatIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the input windows' staging buffers hold when the body runs -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body obligation, at a generic point -/

/-- What the body is called with at point `t`: the invariant, nothing owed, and each window's current staging
    buffer whole — the four inputs' at what the pipeline left there, the output's at anything. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' buffers hold their blocks, so the run applies; the invariant passes through
    unread; the core owes nothing throughout; the output's buffer ends at the read-back of the four stored bands,
    which tile it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  unfold out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KMainIdeal.lean ====
/-
  The pooling kernel's @main up to the region: a reshape of the batch and two paddings of zero width, none of which
  writes an argument of @main, then the region and the return.
-/
import proofs.«136681_g2000706673400859_pallasbulk_1295_21_alg».proof.Proof.KBodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the region: the lines of host operations, then the region and the return, the unscoped buffers
    then at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Hand

end
-- ==== Proof.KLaunchIdeal.lean ====
/-
  The pooling kernel's launch: how the buffers behind the windows' arrays make the pipeline's arrays — the batch
  array is read by two input windows, which hold the two halves of its share —, the run of @main to the frame post,
  and the frame.
-/
import proofs.«136681_g2000706673400859_pallasbulk_1295_21_alg».proof.Proof.KMainIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- The distinct buffers behind the five windows' arrays: the batch (read by windows 0 and 1), the weight, the
    bias and the output. -/
theorem arrImage0 : Finset.univ.image (Pipeline.arrRef spec0) = [main_v0, main_v1, main_v2, main_v3].toFinset := by decide

/-- The buffers behind the arrays, each whole at the full share, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_v3) ↦{fullShare} V main_v3)) := by
  unfold Pipeline.arrBufs
  exact bigSep_eq_bigSepL_of_eq [main_v0, main_v1, main_v2, main_v3] arrImage0 (by decide) _

/-- The buffers behind the arrays, each whole at the full share at the entry contents, make the pipeline's arrays:
    the batch's full share is the left half, held by window 0, and the right half, held by window 1; the weight,
    the bias and the output are each one window's, at the full share. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq]
  unfold Dat.arrays
  rw [bigSep_W0]
  simp only [View.set_whole]
  have hs0 : (dats m 0 c).share 0 = fullShare.left := rfl
  have hs1 : (dats m 0 c).share 1 = fullShare.right := rfl
  have hs2 : (dats m 0 c).share 2 = fullShare := rfl
  have hs3 : (dats m 0 c).share 3 = fullShare := rfl
  have hs4 : (dats m 0 c).share 4 = fullShare := rfl
  have ha : ∀ w, (dats m 0 c).arrAt w 0 = V m c (Pipeline.arrRef spec0 w) := fun w => A_eq m c w
  rw [hs0, hs1, hs2, hs3, hs4, ha 0, ha 1, ha 2, ha 3, ha 4]
  iintro ⟨H0, H1, H2, H3⟩
  ihave H0 := (pointsTo_share (PosShare.mem_left_op_right fullShare)).1 $$ H0
  icases H0 with ⟨H0l, H0r⟩
  isplitl [H0l]; · iexact H0l
  isplitl [H0r]; · iexact H0r
  isplitl [H1]; · iexact H1
  isplitl [H2]; · iexact H2
  iexact H3

/-! ## The run and the frame -/

set_option backward.isDefEq.respectTransparency.types false in
/-- At the compiled mesh, for any values, from any memory with zero counters: every weakly fair execution of @main on
    the TensorCores terminates, and every final state has every window's array at what the library computes from
    the proof data and every other unscoped buffer as the region found it. The launch hands the invariant the
    generator register and the scoped buffers that are no staging buffer; the unscoped buffers that are no window's
    array bypass the region and are read back at the end. -/
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (hbody := fun c => (body_obligation m c).loose)
    (hne := block_pos0) (harr := arr_whole0) (hstage := stage_whole0) (howed := fun _ _ => rfl)
    (G := fun _ => iprop(emp))
    (u₀ := initOf (Pipeline.cells cfgs cellOf_inj) (Pipeline.launchToks cfgs cellOf_inj))
    (hu₀ := by
      rw [ownU_emb₁]
      iintro Hu; imodintro
      isplitl [Hu]; · iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2.2⟩)

/-- The frame: no host operation before the region writes an argument of @main, no window's array is one, so the
    region's bypassing buffers — the three arguments among them — end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Hand

end
-- ==== Proof.Spec.lean ====
/-
  The function both programs compute, on the extended reals: for a batch of 1024 sequences of 128 rows of 512
  features, a 512 × 512 weight and a one-row bias,

      out[b, j] = max ( (sup over the 128 rows l of  ∑ k, x[b, l, k] · w[k, j]) + bias[0, j] , 0 ).

  The supremum over the rows is the lattice supremum of the extended reals (bottom is -∞), so it may be taken in
  any grouping: over two halves of 64 rows joined by `max`, or as a running maximum started at -∞.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![1024, 128, 512]⟩
abbrev SW : Shape := ⟨2, ![512, 512]⟩
abbrev SB : Shape := ⟨2, ![1, 512]⟩
abbrev SO : Shape := ⟨2, ![1024, 512]⟩

/-- Row `l` of sequence `b` against column `j` of the weight: the contraction over the 512 features. -/
def lin (x : SX.Idx → EReal) (w : SW.Idx → EReal) (b : Fin 1024) (l : Fin 128) (j : Fin 512) : EReal :=
  ∑ k : Fin 512, x (ix3 b l k) * w (ix2 k j)

/-- The pooled entry (b, j): the supremum over the 128 rows, shifted by the bias, clamped below at zero. -/
def poolAt (x : SX.Idx → EReal) (w : SW.Idx → EReal) (bias : SB.Idx → EReal) (b : Fin 1024) (j : Fin 512) : EReal :=
  max ((Finset.univ.sup fun l : Fin 128 => lin x w b l j) + bias (ix2 (0 : Fin 1) j)) 0

/-- The whole result array. -/
def pool (x : SX.Idx → EReal) (w : SW.Idx → EReal) (bias : SB.Idx → EReal) : SO.Idx → EReal :=
  fun i => poolAt x w bias (i 0) (i 1)

theorem pool_apply (x : SX.Idx → EReal) (w : SW.Idx → EReal) (bias : SB.Idx → EReal) (b : Fin 1024) (j : Fin 512) :
    pool x w bias (ix2 b j) = poolAt x w bias b j := rfl

/-- A fold of `max` from -∞ is the supremum. -/
theorem fold_max_bot {n : Nat} (f : Fin n → EReal) : (Finset.univ : Finset (Fin n)).fold max ⊥ f = Finset.univ.sup f := by
  unfold Finset.sup
  first
    | rfl
    | (congr 1; funext a b; exact (sup_eq_max (a := a) (b := b)).symm)

end Cert.Spec

end
-- ==== Proof.KFinal.lean ====
/-
  From the pooling kernel's blocks to its result array.  Grid point t writes back rows 64·t … 64·t+63 of the result;
  the block it writes is computed from the two halves (rows 0 … 63 and 64 … 127 of the sequence axis) of sequences
  64·t … 64·t+63 of the batch, the whole weight and the whole bias, and the supremum over the 128 rows of a sequence
  is the join of the suprema over its two halves: so every point writes its block of ONE array, the pooled result of
  the three arguments, and the sixteen blocks tile that array.
-/
import proofs.«136681_g2000706673400859_pallasbulk_1295_21_alg».proof.Proof.KValue
import proofs.«136681_g2000706673400859_pallasbulk_1295_21_alg».proof.Proof.KHost
import proofs.«136681_g2000706673400859_pallasbulk_1295_21_alg».proof.Proof.KLaunchIdeal
import proofs.«136681_g2000706673400859_pallasbulk_1295_21_alg».proof.Proof.Spec
import proofs.«136681_g2000706673400859_pallasbulk_1295_21_alg».proof.Proof.LibMaxMid
import proofs.«136681_g2000706673400859_pallasbulk_1295_21_alg».proof.Proof.LibRowLanes

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

/-! ## One entry of a block is one entry of the pooled result -/

/-- An entry of the batch regrouped as 2 × 64 rows per sequence: entry (B, H, l, k) is row H·64 + l of sequence B. -/
theorem regroup_apply (x : Cert.Spec.SX.Idx → EReal) (h : S1024x128x512.ShapeCasts S1024x2x64x512) (idx : S1024x2x64x512.Idx)
    (B : Fin 1024) (H : Fin 2) (l : Fin 64) (k : Fin 512) (L : Fin 128)
    (e0 : (idx 0).val = B.val) (e1 : (idx 1).val = H.val) (e2 : (idx 2).val = l.val) (e3 : (idx 3).val = k.val)
    (hL : L.val = H.val * 64 + l.val) :
    shapeCast S1024x2x64x512 x h idx = x (ix3 B L k) := by
  have hidx : idx = ix4 B H l k := funext fun a => Fin.ext (by
    match a with
    | ⟨0, _⟩ => exact e0
    | ⟨1, _⟩ => exact e1
    | ⟨2, _⟩ => exact e2
    | ⟨3, _⟩ => exact e3)
  have hlt : H.val * 64 + l.val < 128 := by have := H.isLt; have := l.isLt; omega
  have hLe : L = ⟨H.val * 64 + l.val, hlt⟩ := Fin.ext hL
  rw [hidx, hLe]
  exact RowLanes.cast_anc_absc x h rfl B H l k hlt

/-- Entry (r, j) of a block computed from loaded blocks that hold rows 0 … 63 and rows 64 … 127 of sequence `B`, the
    weight and the bias, is entry (B, j) of the pooled result: the supremum over the 128 rows is the join of the
    suprema over the two halves. -/
theorem blockAt_eq_poolAt (x : Cert.Spec.SX.Idx → EReal) (w : Cert.Spec.SW.Idx → EReal) (b : Cert.Spec.SB.Idx → EReal)
    (X0 X1 : FVec Ideal S64x1x64x512 .f32) (X2 : FVec Ideal S512x512 .f32) (X3 : FVec Ideal S1x512 .f32)
    (B : Fin 1024) (r : Fin 64) (j : Fin 512)
    (h0 : ∀ (l : Fin 64) (k : Fin 512) (L : Fin 128), L.val = l.val → X0 (ix4 r (0 : Fin 1) l k) = x (ix3 B L k))
    (h1 : ∀ (l : Fin 64) (k : Fin 512) (L : Fin 128), L.val = 64 + l.val → X1 (ix4 r (0 : Fin 1) l k) = x (ix3 B L k))
    (h2 : X2 = w) (h3 : X3 = b) :
    blockAt X0 X1 X2 X3 r j = Cert.Spec.poolAt x w b B j := by
  subst h2 h3
  have hs := MaxMid.sup_add (m := 64) (n := 64) (fun l : Fin 128 => Cert.Spec.lin x X2 B l j)
  have hl : blockAt X0 X1 X2 X3 r j
      = max (max (Finset.univ.sup fun l : Fin 64 => Cert.Spec.lin x X2 B (Fin.castAdd 64 l) j)
                (Finset.univ.sup fun l : Fin 64 => Cert.Spec.lin x X2 B (Fin.natAdd 64 l) j) + X3 (ix2 (0 : Fin 1) j)) 0 := by
    unfold blockAt Cert.Spec.lin
    have e0 : ∀ (l : Fin 64) (k : Fin 512), X0 (ix4 r (0 : Fin 1) l k) = x (ix3 B (Fin.castAdd 64 l) k) := fun l k => h0 l k _ rfl
    have e1 : ∀ (l : Fin 64) (k : Fin 512), X1 (ix4 r (0 : Fin 1) l k) = x (ix3 B (Fin.natAdd 64 l) k) := fun l k => h1 l k _ rfl
    simp only [e0, e1]
  rw [hl]
  unfold Cert.Spec.poolAt
  exact congrArg (fun s => max (s + X3 (ix2 (0 : Fin 1) j)) 0) hs.symm

/-- The block as an array, index by index: at an index y whose place in the result array is i (row T·64 + y₀,
    the same column), the block computed from the blocks of sequences T·64 … T·64+63 is the pooled result at i. -/
theorem blockG_eq_pool (x : Cert.Spec.SX.Idx → EReal) (w : Cert.Spec.SW.Idx → EReal) (b : Cert.Spec.SB.Idx → EReal)
    (X0 X1 : FVec Ideal S64x1x64x512 .f32) (X2 : FVec Ideal S512x512 .f32) (X3 : FVec Ideal S1x512 .f32)
    (T : ℕ) (y : S64x512.Idx) (i : Cert.Spec.SO.Idx)
    (hi0 : (i 0).val = T * 64 + (y 0).val) (hi1 : (i 1).val = (y 1).val)
    (h0 : ∀ (r : Fin 64) (l : Fin 64) (k : Fin 512) (B : Fin 1024) (L : Fin 128), B.val = T * 64 + r.val → L.val = l.val →
      X0 (ix4 r (0 : Fin 1) l k) = x (ix3 B L k))
    (h1 : ∀ (r : Fin 64) (l : Fin 64) (k : Fin 512) (B : Fin 1024) (L : Fin 128), B.val = T * 64 + r.val → L.val = 64 + l.val →
      X1 (ix4 r (0 : Fin 1) l k) = x (ix3 B L k))
    (h2 : X2 = w) (h3 : X3 = b) :
    blockG X0 X1 X2 X3 y = Cert.Spec.pool x w b i := by
  obtain ⟨r, j, rfl⟩ : ∃ (r : Fin 64) (j : Fin 512), y = ix2 r j := ⟨y 0, y 1, eq_ix2 y⟩
  obtain ⟨B, J, rfl⟩ : ∃ (B : Fin 1024) (J : Fin 512), i = ix2 B J := ⟨i 0, i 1, eq_ix2 i⟩
  have hB : B.val = T * 64 + r.val := hi0
  have hJ : J = j := Fin.ext hi1
  subst hJ
  rw [blockG_ix2, Cert.Spec.pool_apply]
  exact blockAt_eq_poolAt x w b X0 X1 X2 X3 B r J (fun l k L hL => h0 r l k B L hB hL) (fun l k L hL => h1 r l k B L hB hL) h2 h3

variable (m : (ℓ : Loc nD τ sig) → Buf (Elt Ideal) ℓ) (ρ : Dev nD → PrngReg)

/-! ## Where each window's block sits in its array -/

/-- The windows' block indices at point t, decided over the sixteen points: the two batch windows are at sequences'
    block t, on the first and the second half of the rows; the weight and the bias are whole; the output is at row
    block t. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 1 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What each point writes back -/

/-- What point t writes back is block t of the pooled result of the three arguments. -/
theorem flushed4_eq (c : Dev nD) (t : Fin cfg0.N) :
    (dats (F := Ideal) m 0 c).flushed 4 t
      = ((cfg0.win 4).blk t).view.read (Elt Ideal)
          (Cert.Spec.pool (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold outsAt0
  rw [out0_4_eq]
  obtain ⟨a00, a01, a02, a03, a10, a11, a12, a13, a20, a21, a30, a31, a40, a41⟩ := idx_facts t
  funext y
  show blockG (iblk m c 0 t) (iblk m c 1 t) (iblk m c 2 t) (iblk m c 3 t) y
    = Cert.Spec.pool (m ((c : Thread nD τ).loc main_arg0)) (m ((c : Thread nD τ).loc main_arg1)) (m ((c : Thread nD τ).loc main_arg2))
        (((cfg0.win 4).blk t).view.emb y)
  refine blockG_eq_pool _ _ _ _ _ _ _ t.val y _ ?_ ?_ ?_ ?_ ?_ ?_
  · show win0_4.index t (0 : Fin 2) * 64 + 1 * (y 0).val = t.val * 64 + (y 0).val
    rw [a40]; omega
  · show win0_4.index t (1 : Fin 2) * 512 + 1 * (y 1).val = (y 1).val
    rw [a41]; omega
  · intro r l k B L hB hL
    show V m c main_v0 (((cfg0.win 0).blk t).view.emb (ix4 r (0 : Fin 1) l k)) = _
    refine (congrFun (V_main_v0 m c) _).trans ?_
    refine regroup_apply _ _ _ B (0 : Fin 2) l k L ?_ ?_ ?_ ?_ ?_
    · show win0_0.index t (0 : Fin 4) * 64 + 1 * r.val = B.val
      rw [a00]; omega
    · show win0_0.index t (1 : Fin 4) * 1 + 1 * 0 = 0
      rw [a01]
    · show win0_0.index t (2 : Fin 4) * 64 + 1 * l.val = l.val
      rw [a02]; omega
    · show win0_0.index t (3 : Fin 4) * 512 + 1 * k.val = k.val
      rw [a03]; omega
    · show L.val = 0 * 64 + l.val
      omega
  · intro r l k B L hB hL
    show V m c main_v0 (((cfg0.win 1).blk t).view.emb (ix4 r (0 : Fin 1) l k)) = _
    refine (congrFun (V_main_v0 m c) _).trans ?_
    refine regroup_apply _ _ _ B (1 : Fin 2) l k L ?_ ?_ ?_ ?_ ?_
    · show win0_1.index t (0 : Fin 4) * 64 + 1 * r.val = B.val
      rw [a10]; omega
    · show win0_1.index t (1 : Fin 4) * 1 + 1 * 0 = 1
      rw [a11]
    · show win0_1.index t (2 : Fin 4) * 64 + 1 * l.val = l.val
      rw [a12]; omega
    · show win0_1.index t (3 : Fin 4) * 512 + 1 * k.val = k.val
      rw [a13]; omega
    · show L.val = 1 * 64 + l.val
      omega
  · funext z
    show V m c main_v1 (((cfg0.win 2).blk t).view.emb z) = _
    refine (congrFun (V_main_v1 m c) _).trans (congrArg _ (funext fun a => Fin.ext ?_))
    match a with
    | ⟨0, _⟩ => show win0_2.index t (0 : Fin 2) * 512 + 1 * (z 0).val = (z 0).val; rw [a20]; omega
    | ⟨1, _⟩ => show win0_2.index t (1 : Fin 2) * 512 + 1 * (z 1).val = (z 1).val; rw [a21]; omega
  · funext z
    show V m c main_v2 (((cfg0.win 3).blk t).view.emb z) = _
    refine (congrFun (V_main_v2 m c) _).trans (congrArg _ (funext fun a => Fin.ext ?_))
    match a with
    | ⟨0, _⟩ => show win0_3.index t (0 : Fin 2) * 1 + 1 * (z 0).val = (z 0).val; rw [a30]; omega
    | ⟨1, _⟩ => show win0_3.index t (1 : Fin 2) * 512 + 1 * (z 1).val = (z 1).val; rw [a31]; omega

/-! ## The sixteen blocks tile the result -/

/-- An index of the result is in point t's block iff each coordinate is in the block's range on its axis. -/
theorem mem_blk4 (t : Fin cfg0.N) (i : S1024x512.Idx) :
    i ∈ ((cfg0.win 4).blk t).view.set ↔ ∀ a : Fin 2, win0_4.index t a * S64x512.size a ≤ (i a).val ∧ (i a).val < win0_4.index t a * S64x512.size a + S64x512.size a := by
  show i ∈ ((View.whole main_v3).slice (win0_4.rect t)).set ↔ _
  rw [View.set_slice_whole, Rect.mem_set_unit]
  exact Iff.rfl

/-- Row r of the result is in the block of point r / 64, and every point writes its block back. -/
theorem cover4 (i : S1024x512.Idx) : ∃ t : Fin cfg0.N, (cfg0.win 4).flush t = true ∧ i ∈ ((cfg0.win 4).blk t).view.set := by
  have hi0 : (i 0).val < 1024 := (i 0).isLt
  have hi1 : (i 1).val < 512 := (i 1).isLt
  have hN : (i 0).val / 64 < cfg0.N := by
    show (i 0).val / 64 < grid0.N
    rw [N_0]; omega
  obtain ⟨-, -, -, -, -, -, -, -, -, -, -, -, a40, a41⟩ := idx_facts ⟨(i 0).val / 64, hN⟩
  refine ⟨⟨(i 0).val / 64, hN⟩, flush0_4 _, ?_⟩
  rw [mem_blk4]
  intro a
  match a with
  | ⟨0, _⟩ =>
    show win0_4.index ⟨(i 0).val / 64, hN⟩ (0 : Fin 2) * 64 ≤ (i 0).val ∧ (i 0).val < win0_4.index ⟨(i 0).val / 64, hN⟩ (0 : Fin 2) * 64 + 64
    rw [a40]
    show (i 0).val / 64 * 64 ≤ (i 0).val ∧ (i 0).val < (i 0).val / 64 * 64 + 64
    omega
  | ⟨1, _⟩ =>
    show win0_4.index ⟨(i 0).val / 64, hN⟩ (1 : Fin 2) * 512 ≤ (i 1).val ∧ (i 1).val < win0_4.index ⟨(i 0).val / 64, hN⟩ (1 : Fin 2) * 512 + 512
    rw [a41]; omega

/-! ## The result array, and the run read -/

/-- The result array after the run is the pooled result of the three arguments. -/
theorem final4 (c : Dev nD) :
    (dats (F := Ideal) m 0 c).arrAt 4 cfg0.N
      = Cert.Spec.pool (m ((c : Thread nD τ).loc main_arg0)) (m ((c : Thread nD τ).loc main_arg1)) (m ((c : Thread nD τ).loc main_arg2)) :=
  (dats m 0 c).arrAt_eq_of_cover 4 _ (fun t _ => flushed4_eq m c t) cover4

/-- Every weakly fair execution of @main from any memory with zero counters terminates with the result array at
    the pooled result of the three arguments, and the arguments as launched. -/
theorem run : θ_run (defs (F := Ideal)) (onTc (τ := τ) (main (F := Ideal))) ⟨m, fun _ => 0, ρ⟩ fun r => ∀ c : Dev nD,
      r.2.mem ((c : Thread nD τ).loc main_v3) = Cert.Spec.pool (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.RefRows.lean ====
/-
  An 8 × 512 buffer filled row by row.

  A store of one 1 × 512 row at row `r` of an 8 × 512 buffer, on top of earlier stores: at an index of another
  row the contents are what the earlier stores left; at an index of row `r` they are the stored row.  A load of
  row `r` after a list of stores reads, lane by lane, what the stores left at row `r`.  A 1 × 64 × 512 slab of an
  8 × 128 × 512 block starting at (r, c, 0) reads the block at (r, c + l, k).
-/
import proofs.«136681_g2000706673400859_pallasbulk_1295_21_alg».proof.ReferenceIdeal
import Idealize.ShloMosaic.Lib.Pipeline.Value
import Idealize.ShloMosaic.Lib.ValueIdx

namespace Cert.ReferenceIdeal.RefValue

open Cert.ReferenceIdeal Idealize.ShloMosaic Idealize.ShloMosaic.ValueIdx

variable {Val : EltTy → Type}

/-- Lane `j` of the row rectangle at row `r` is the buffer's index (r, j). -/
theorem row_emb (r : ℕ) (inb : ∀ a, (![r, 0] : Fin 2 → ℕ) a + S1x512.size a ≤ S8x512.size a) (hr : r < 8) (j : Fin 512) :
    (Rect.unit (s := S8x512) ![r, 0] S1x512.size inb).emb (ix2 (0 : Fin 1) j) = ix2 (⟨r, hr⟩ : Fin 8) j :=
  funext fun a => Fin.ext (by
    match a with
    | ⟨0, _⟩ => show r + 1 * 0 = r; omega
    | ⟨1, _⟩ => show 0 + 1 * j.val = j.val; omega)

/-- An index of another row is outside the row rectangle. -/
theorem row_not_mem (r : ℕ) (inb : ∀ a, (![r, 0] : Fin 2 → ℕ) a + S1x512.size a ≤ S8x512.size a) (b : Fin 8) (j : Fin 512)
    (h : b.val ≠ r) : ix2 b j ∉ (Rect.unit (s := S8x512) ![r, 0] S1x512.size inb).set := by
  rw [Rect.mem_set_unit]
  intro hm
  have h0 := hm 0
  have e : ((ix2 b j : S8x512.Idx) 0).val = b.val := rfl
  have o : (![r, 0] : Fin 2 → ℕ) 0 = r := rfl
  have s : S1x512.size 0 = 1 := rfl
  omega

/-- A row stored last leaves the other rows as they were. -/
theorem canon_row_ne [∀ e, Nonempty (Val e)] (r : ℕ) (inb : ∀ a, (![r, 0] : Fin 2 → ℕ) a + S1x512.size a ≤ S8x512.size a)
    (w : S1x512.Idx → Val .f32) (L : List (View.Piece Val S8x512 .f32)) (b : Fin 8) (j : Fin 512) (h : b.val ≠ r) :
    View.canon ((⟨Rect.unit (s := S8x512) ![r, 0] S1x512.size inb, w⟩ : View.Piece Val S8x512 .f32) :: L) (ix2 b j)
      = View.canon L (ix2 b j) :=
  View.canon_cons_of_not_mem _ L (row_not_mem r inb b j h)

/-- A row stored last is read back lane by lane. -/
theorem canon_row_eq [∀ e, Nonempty (Val e)] (r : ℕ) (inb : ∀ a, (![r, 0] : Fin 2 → ℕ) a + S1x512.size a ≤ S8x512.size a)
    (w : S1x512.Idx → Val .f32) (L : List (View.Piece Val S8x512 .f32)) (hr : r < 8) (j : Fin 512) :
    View.canon ((⟨Rect.unit (s := S8x512) ![r, 0] S1x512.size inb, w⟩ : View.Piece Val S8x512 .f32) :: L) (ix2 (⟨r, hr⟩ : Fin 8) j)
      = w (ix2 (0 : Fin 1) j) := by
  rw [← row_emb r inb hr j]
  exact View.canon_cons_emb (Rect.unit (s := S8x512) ![r, 0] S1x512.size inb) w L (ix2 (0 : Fin 1) j)

/-- A load of row `r` after the stores `L` reads, at lane `j`, what they left at (r, j). -/
theorem readCov_row [∀ e, Nonempty (Val e)] {sig : RefSig} {κ : Kind} {sp : Space} (v : View sig κ sp S8x512 .f32)
    (L : List (View.Piece Val S8x512 .f32)) (r : ℕ) (inb : ∀ a, (![r, 0] : Fin 2 → ℕ) a + S1x512.size a ≤ S8x512.size a)
    (hr : r < 8) (j : Fin 512) :
    v.readCov L (Rect.unit (s := S8x512) ![r, 0] S1x512.size inb).toLoadRect (ix2 (0 : Fin 1) j) = View.canon L (ix2 (⟨r, hr⟩ : Fin 8) j) := by
  rw [View.readCov_eq_canon']
  exact congrArg (View.canon L) (row_emb r inb hr j)

/-- A load of the whole buffer after the stores `L` reads what they left. -/
theorem readCov_whole [∀ e, Nonempty (Val e)] {sig : RefSig} {κ : Kind} {sp : Space} (v : View sig κ sp S8x512 .f32)
    (L : List (View.Piece Val S8x512 .f32)) (inb : ∀ a, (![0, 0] : Fin 2 → ℕ) a + S8x512.size a ≤ S8x512.size a)
    (y : S8x512.Idx) :
    v.readCov L (Rect.unit (s := S8x512) ![0, 0] S8x512.size inb).toLoadRect y = View.canon L y := by
  rw [View.readCov_eq_canon']
  exact congrArg (View.canon L) (funext fun a => Fin.ext (by
    match a with
    | ⟨0, _⟩ => show 0 + 1 * (y 0).val = (y 0).val; omega
    | ⟨1, _⟩ => show 0 + 1 * (y 1).val = (y 1).val; omega))

/-- The slab of 64 rows from (r, c, 0) of an 8 × 128 × 512 block, at (0, l, k), is the block at (r, q, k) with q = c + l. -/
theorem slab_apply (X : S8x128x512.Idx → Val .f32) (r c : ℕ)
    (inb : ∀ a, (![r, c, 0] : Fin 3 → ℕ) a + S1x64x512.size a ≤ S8x128x512.size a) (hr : r < 8)
    (l : Fin 64) (k : Fin 512) (q : Fin 128) (hq : q.val = c + l.val) :
    View.ld X (Rect.unit (s := S8x128x512) ![r, c, 0] S1x64x512.size inb) (ix3 (0 : Fin 1) l k) = X (ix3 (⟨r, hr⟩ : Fin 8) q k) :=
  congrArg X (funext fun a => Fin.ext (by
    match a with
    | ⟨0, _⟩ => show r + 1 * 0 = r; omega
    | ⟨1, _⟩ => show c + 1 * l.val = q.val; omega
    | ⟨2, _⟩ => show 0 + 1 * k.val = k.val; omega))

end Cert.ReferenceIdeal.RefValue
-- ==== Proof.RefChunk.lean ====
/-
  The arithmetic of the body, read at one entry, on the extended reals.

  One step of the running maximum: a slab of 64 rows of 512 features is multiplied with the 512 × 512 weight, the
  products are maximised over the 64 rows from -∞, and the result is joined by `max` with the row the buffer held.
  At lane `j` this is  max (old j) (sup over l < 64 of ∑ k, slab (l, k) · weight (k, j)).

  The finish: the buffer plus the bias row broadcast over the 8 rows, clamped below at zero.  At (b, j) this is
  max (acc (b, j) + bias (0, j)) 0.  The fill: every entry is -∞.
-/
import proofs.«136681_g2000706673400859_pallasbulk_1295_21_alg».proof.Proof.Gen.ReferenceIdeal.Skeleton
import proofs.«136681_g2000706673400859_pallasbulk_1295_21_alg».proof.Proof.LibHalfBand
import proofs.«136681_g2000706673400859_pallasbulk_1295_21_alg».proof.Proof.LibMaxMid
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The supremum over a slab's 64 rows of the row's product with column `j` of the weight. -/
def rowsSup (X : S1x64x512.Idx → EReal) (W : S512x512.Idx → EReal) (j : Fin 512) : EReal :=
  Finset.univ.sup fun l : Fin 64 => ∑ k : Fin 512, X (ix3 (0 : Fin 1) l k) * W (ix2 k j)

/-- One step of the running maximum at lane `j`. -/
theorem step_apply (W : FVec Ideal S512x512 .f32) (X : Vec Ideal S1x64x512 .f32) (old : Vec Ideal S1x512 .f32) (j : Fin 512) :
    k0_pay9 (F := Ideal) W X old (ix2 (0 : Fin 1) j) = max (old (ix2 (0 : Fin 1) j)) (rowsSup X W j) := by
  unfold k0_pay9
  refine (maximumf_apply _ _ _).trans ?_
  refine congrArg₂ max ?_ ?_
  · exact congrFun (shapeCast_self old shapeCasts_S1x512_S1x512) _
  · exact HalfBand.rowsMax_apply (a := 1) (b := 64) (c := 512) (q := 512) (n := 64) X W
      dot_S64x512_S512x512_S64x512_1_0_0_1_n_n rfl rfl rfl rfl rfl rfl
      shapeCasts_S1x64x512_S64x512 shapeCasts_S64x512_S1x64x512 reduces_S1x64x512_S1x512 (.inl rfl) rfl rfl (0 : Fin 1) j

/-- The weight passes through its shape cast unchanged. -/
theorem weight_eq {F : FTy → Type} [FloatOps F] (v3 : Vec F S512x512 .f32) : k0_pay4 v3 = v3 :=
  shapeCast_self v3 shapeCasts_S512x512_S512x512

/-- The fill is -∞ everywhere. -/
theorem fill_apply (y : S8x512.Idx) : k0_pay3 (F := Ideal) y = (⊥ : EReal) := by
  unfold k0_pay3
  exact MaxMid.ofBits_neg_inf_f32

/-- The finish at (b, j): the accumulated entry plus the bias of lane `j`, clamped below at zero. -/
theorem finish_apply (acc : Vec Ideal S8x512 .f32) (bias : Vec Ideal S1x512 .f32) (b : Fin 8) (j : Fin 512) :
    k0_pay2 (F := Ideal) acc bias (ix2 b j) = max (acc (ix2 b j) + bias (ix2 (0 : Fin 1) j)) 0 := by
  unfold k0_pay2
  refine (maximumf_apply _ _ _).trans ?_
  refine congrArg₂ max ?_ ?_
  · refine (addf_apply _ _ _).trans ?_
    refine congrArg₂ (· + ·) ?_ ?_
    · exact congrFun (shapeCast_self acc shapeCasts_S8x512_S8x512) _
    · refine (broadcastTo_apply _ broadcasts_S1x512_S8x512 (ix2 b j) (ix2 (0 : Fin 1) j) ?_).trans ?_
      · intro a
        match a with
        | ⟨0, _⟩ => rfl
        | ⟨1, _⟩ => rfl
      · exact congrFun (shapeCast_self bias shapeCasts_S1x512_S1x512) _
  · exact Ideal.ofBits_zero_f32

end Cert.ReferenceIdeal.RefValue

end
-- ==== Proof.RefPieces.lean ====
/-
  What the sixteen row stores leave in the 8 × 512 output block, entry by entry.

  The block is first filled with -∞.  Then, for each of its 8 rows and each half (rows 0–63, rows 64–127) of that
  row's 128 × 512 slab of the input block, the row is replaced by its join with the supremum, over the 64 rows of
  the half, of the products with the weight.  A store of row r leaves every other row as it was, so row r ends as

      max (max -∞ (sup over the first half)) (sup over the second half).

  The stores form a chain of lists, each one store on top of the one before; each step below opens one link of
  that chain.
-/
import proofs.«136681_g2000706673400859_pallasbulk_1295_21_alg».proof.Proof.Gen.ReferenceIdeal.Frame
import proofs.«136681_g2000706673400859_pallasbulk_1295_21_alg».proof.Proof.RefRows
import proofs.«136681_g2000706673400859_pallasbulk_1295_21_alg».proof.Proof.RefChunk

set_option maxRecDepth 16384

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The supremum over rows 0–63 of sequence `b` of the block, of the row's product with column `j`. -/
def loSup (x0 : S8x128x512.Idx → EReal) (x1 : S512x512.Idx → EReal) (b : Fin 8) (j : Fin 512) : EReal :=
  Finset.univ.sup fun l : Fin 64 => ∑ k : Fin 512, x0 (ix3 b (Fin.castAdd 64 l) k) * x1 (ix2 k j)

/-- The supremum over rows 64–127. -/
def hiSup (x0 : S8x128x512.Idx → EReal) (x1 : S512x512.Idx → EReal) (b : Fin 8) (j : Fin 512) : EReal :=
  Finset.univ.sup fun l : Fin 64 => ∑ k : Fin 512, x0 (ix3 b (Fin.natAdd 64 l) k) * x1 (ix2 k j)

theorem hz2 : (![0, 0] : Fin 2 → Nat) = fun _ => 0 := funext fun a => by
  match a with
  | ⟨0, _⟩ => rfl
  | ⟨1, _⟩ => rfl

/-- The weight as the body holds it is the weight block. -/
theorem weight_read (c : Dev nD) (arg4 : Memref sig .tc .vmem S512x512 .f32) (harg4 : arg4.IsWhole) (x1 : Vec Ideal S512x512 .f32) :
    kernelRun0_A.sl.r (F := Ideal) c arg4 harg4 x1 = x1 := by
  unfold kernelRun0_A.sl.r
  rw [weight_eq, View.readAt_eq_ld, harg4.read_unread, View.ld_unit_zero (S := S512x512) hz2]

/-- The first half of row `r`'s slab against the weight. -/
theorem chunk_lo (c : Dev nD) (arg3 : Memref sig .tc .vmem S8x128x512 .f32) (harg3 : arg3.IsWhole) (arg4 : Memref sig .tc .vmem S512x512 .f32) (harg4 : arg4.IsWhole)
    (x0 : Vec Ideal S8x128x512 .f32) (x1 : Vec Ideal S512x512 .f32) (r : ℕ)
    (inb : ∀ a, (![r, 0, 0] : Fin 3 → ℕ) a + S1x64x512.size a ≤ S8x128x512.size a) (hr : r < 8) (j : Fin 512) :
    rowsSup (View.readAt (Elt Ideal) arg3.view (Rect.unit (s := S8x128x512) ![r, 0, 0] S1x64x512.size inb).toLoadRect (harg3.unread x0))
        (kernelRun0_A.sl.r (F := Ideal) c arg4 harg4 x1) j = loSup x0 x1 (⟨r, hr⟩ : Fin 8) j := by
  rw [weight_read, View.readAt_eq_ld, harg3.read_unread]
  unfold rowsSup loSup
  refine congrArg (Finset.sup Finset.univ) (funext fun l => Finset.sum_congr rfl fun k _ => ?_)
  rw [slab_apply x0 r 0 inb hr l k (Fin.castAdd 64 l) (Nat.zero_add _).symm]

/-- The second half of row `r`'s slab against the weight. -/
theorem chunk_hi (c : Dev nD) (arg3 : Memref sig .tc .vmem S8x128x512 .f32) (harg3 : arg3.IsWhole) (arg4 : Memref sig .tc .vmem S512x512 .f32) (harg4 : arg4.IsWhole)
    (x0 : Vec Ideal S8x128x512 .f32) (x1 : Vec Ideal S512x512 .f32) (r : ℕ)
    (inb : ∀ a, (![r, 64, 0] : Fin 3 → ℕ) a + S1x64x512.size a ≤ S8x128x512.size a) (hr : r < 8) (j : Fin 512) :
    rowsSup (View.readAt (Elt Ideal) arg3.view (Rect.unit (s := S8x128x512) ![r, 64, 0] S1x64x512.size inb).toLoadRect (harg3.unread x0))
        (kernelRun0_A.sl.r (F := Ideal) c arg4 harg4 x1) j = hiSup x0 x1 (⟨r, hr⟩ : Fin 8) j := by
  rw [weight_read, View.readAt_eq_ld, harg3.read_unread]
  unfold rowsSup hiSup
  refine congrArg (Finset.sup Finset.univ) (funext fun l => Finset.sum_congr rfl fun k _ => ?_)
  rw [slab_apply x0 r 64 inb hr l k (Fin.natAdd 64 l) rfl]

/-- After the fill every entry is -∞. -/
theorem base_apply (y : S8x512.Idx) : View.canon (kernelRun0_A.sl.H3_1 (F := Ideal)) y = (⊥ : EReal) := by
  unfold kernelRun0_A.sl.H3_1
  rw [View.canon_unit_zero (S := S8x512) hz2]
  exact fill_apply y

/-- Store 1 (row 0, rows 0–63 of the slab) leaves the other rows as they were. -/
theorem step2_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 0) :
    View.canon (kernelRun0_A.sl.H3_2 (F := Ideal) c arg3 harg3 arg4 harg4 arg6 x0 x1) (ix2 b j) = View.canon (kernelRun0_A.sl.H3_1 (F := Ideal)) (ix2 b j) := by
  unfold kernelRun0_A.sl.H3_2
  exact canon_row_ne 0 inb_S8x512_S1x512_0_0 _ _ b j h

/-- Store 1 joins row 0 with the supremum over rows 0–63 of the slab. -/
theorem step2_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_2 (F := Ideal) c arg3 harg3 arg4 harg4 arg6 x0 x1) (ix2 (⟨0, by decide⟩ : Fin 8) j)
      = max (View.canon (kernelRun0_A.sl.H3_1 (F := Ideal)) (ix2 (⟨0, by decide⟩ : Fin 8) j)) (loSup x0 x1 (⟨0, by decide⟩ : Fin 8) j) := by
  unfold kernelRun0_A.sl.H3_2
  refine (canon_row_eq 0 inb_S8x512_S1x512_0_0 _ _ (by decide) j).trans ?_
  refine (step_apply (kernelRun0_A.sl.r (F := Ideal) c arg4 harg4 x1)
    (View.readAt (Elt Ideal) arg3.view (Rect.unit (s := S8x128x512) ![0, 0, 0] S1x64x512.size inb_S8x128x512_S1x64x512_0_0_0).toLoadRect (harg3.unread x0))
    (kernelRun0_A.sl.v10 (F := Ideal) c arg6) j).trans ?_
  refine congrArg₂ max ?_ ?_
  · unfold kernelRun0_A.sl.v10
    exact readCov_row _ _ 0 inb_S8x512_S1x512_0_0 (by decide) j
  · exact chunk_lo c arg3 harg3 arg4 harg4 x0 x1 0 inb_S8x128x512_S1x64x512_0_0_0 (by decide) j

/-- Store 2 (row 0, rows 64–127 of the slab) leaves the other rows as they were. -/
theorem step3_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 0) :
    View.canon (kernelRun0_A.sl.H3_3 (F := Ideal) c arg3 harg3 arg4 harg4 arg6 x0 x1) (ix2 b j) = View.canon (kernelRun0_A.sl.H3_2 (F := Ideal) c arg3 harg3 arg4 harg4 arg6 x0 x1) (ix2 b j) := by
  unfold kernelRun0_A.sl.H3_3
  exact canon_row_ne 0 inb_S8x512_S1x512_0_0 _ _ b j h

/-- Store 2 joins row 0 with the supremum over rows 64–127 of the slab. -/
theorem step3_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_3 (F := Ideal) c arg3 harg3 arg4 harg4 arg6 x0 x1) (ix2 (⟨0, by decide⟩ : Fin 8) j)
      = max (View.canon (kernelRun0_A.sl.H3_2 (F := Ideal) c arg3 harg3 arg4 harg4 arg6 x0 x1) (ix2 (⟨0, by decide⟩ : Fin 8) j)) (hiSup x0 x1 (⟨0, by decide⟩ : Fin 8) j) := by
  unfold kernelRun0_A.sl.H3_3
  refine (canon_row_eq 0 inb_S8x512_S1x512_0_0 _ _ (by decide) j).trans ?_
  refine (step_apply (kernelRun0_A.sl.r (F := Ideal) c arg4 harg4 x1)
    (View.readAt (Elt Ideal) arg3.view (Rect.unit (s := S8x128x512) ![0, 64, 0] S1x64x512.size inb_S8x128x512_S1x64x512_0_64_0).toLoadRect (harg3.unread x0))
    (kernelRun0_A.sl.v19 (F := Ideal) c arg3 harg3 arg4 harg4 arg6 x0 x1) j).trans ?_
  refine congrArg₂ max ?_ ?_
  · unfold kernelRun0_A.sl.v19
    exact readCov_row _ _ 0 inb_S8x512_S1x512_0_0 (by decide) j
  · exact chunk_hi c arg3 harg3 arg4 harg4 x0 x1 0 inb_S8x128x512_S1x64x512_0_64_0 (by decide) j

/-- Store 3 (row 1, rows 0–63 of the slab) leaves the other rows as they were. -/
theorem step4_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 1) :
    View.canon (kernelRun0_A.sl.H3_4 (F := Ideal) c arg3 harg3 arg4 harg4 arg6 x0 x1) (ix2 b j) = View.canon (kernelRun0_A.sl.H3_3 (F := Ideal) c arg3 harg3 arg4 harg4 arg6 x0 x1) (ix2 b j) := by
  unfold kernelRun0_A.sl.H3_4
  exact canon_row_ne 1 inb_S8x512_S1x512_1_0 _ _ b j h

/-- Store 3 joins row 1 with the supremum over rows 0–63 of the slab. -/
theorem step4_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_4 (F := Ideal) c arg3 harg3 arg4 harg4 arg6 x0 x1) (ix2 (⟨1, by decide⟩ : Fin 8) j)
      = max (View.canon (kernelRun0_A.sl.H3_3 (F := Ideal) c arg3 harg3 arg4 harg4 arg6 x0 x1) (ix2 (⟨1, by decide⟩ : Fin 8) j)) (loSup x0 x1 (⟨1, by decide⟩ : Fin 8) j) := by
  unfold kernelRun0_A.sl.H3_4
  refine (canon_row_eq 1 inb_S8x512_S1x512_1_0 _ _ (by decide) j).trans ?_
  unfold kernelRun0_A.sl.r_1
  refine (step_apply (kernelRun0_A.sl.r (F := Ideal) c arg4 harg4 x1)
    (View.readAt (Elt Ideal) arg3.view (Rect.unit (s := S8x128x512) ![1, 0, 0] S1x64x512.size inb_S8x128x512_S1x64x512_1_0_0).toLoadRect (harg3.unread x0))
    (kernelRun0_A.sl.v28 (F := Ideal) c arg3 harg3 arg4 harg4 arg6 x0 x1) j).trans ?_
  refine congrArg₂ max ?_ ?_
  · unfold kernelRun0_A.sl.v28
    exact readCov_row _ _ 1 inb_S8x512_S1x512_1_0 (by decide) j
  · exact chunk_lo c arg3 harg3 arg4 harg4 x0 x1 1 inb_S8x128x512_S1x64x512_1_0_0 (by decide) j

/-- Store 4 (row 1, rows 64–127 of the slab) leaves the other rows as they were. -/
theorem step5_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 1) :
    View.canon (kernelRun0_A.sl.H3_5 (F := Ideal) c arg3 harg3 arg4 harg4 arg6 x0 x1) (ix2 b j) = View.canon (kernelRun0_A.sl.H3_4 (F := Ideal) c arg3 harg3 arg4 harg4 arg6 x0 x1) (ix2 b j) := by
  unfold kernelRun0_A.sl.H3_5
  exact canon_row_ne 1 inb_S8x512_S1x512_1_0 _ _ b j h

/-- Store 4 joins row 1 with the supremum over rows 64–127 of the slab. -/
theorem step5_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_5 (F := Ideal) c arg3 harg3 arg4 harg4 arg6 x0 x1) (ix2 (⟨1, by decide⟩ : Fin 8) j)
      = max (View.canon (kernelRun0_A.sl.H3_4 (F := Ideal) c arg3 harg3 arg4 harg4 arg6 x0 x1) (ix2 (⟨1, by decide⟩ : Fin 8) j)) (hiSup x0 x1 (⟨1, by decide⟩ : Fin 8) j) := by
  unfold kernelRun0_A.sl.H3_5
  refine (canon_row_eq 1 inb_S8x512_S1x512_1_0 _ _ (by decide) j).trans ?_
  refine (step_apply (kernelRun0_A.sl.r (F := Ideal) c arg4 harg4 x1)
    (View.readAt (Elt Ideal) arg3.view (Rect.unit (s := S8x128x512) ![1, 64, 0] S1x64x512.size inb_S8x128x512_S1x64x512_1_64_0).toLoadRect (harg3.unread x0))
    (kernelRun0_A.sl.v37 (F := Ideal) c arg3 harg3 arg4 harg4 arg6 x0 x1) j).trans ?_
  refine congrArg₂ max ?_ ?_
  · unfold kernelRun0_A.sl.v37
    exact readCov_row _ _ 1 inb_S8x512_S1x512_1_0 (by decide) j
  · exact chunk_hi c arg3 harg3 arg4 harg4 x0 x1 1 inb_S8x128x512_S1x64x512_1_64_0 (by decide) j

/-- Store 5 (row 2, rows 0–63 of the slab) leaves the other rows as they were. -/
theorem step6_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 2) :
    View.canon (kernelRun0_A.sl.H3_6 (F := Ideal) c arg3 harg3 arg4 harg4 arg6 x0 x1) (ix2 b j) = View.canon (kernelRun0_A.sl.H3_5 (F := Ideal) c arg3 harg3 arg4 harg4 arg6 x0 x1) (ix2 b j) := by
  unfold kernelRun0_A.sl.H3_6
  exact canon_row_ne 2 inb_S8x512_S1x512_2_0 _ _ b j h

/-- Store 5 joins row 2 with the supremum over rows 0–63 of the slab. -/
theorem step6_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_6 (F := Ideal) c arg3 harg3 arg4 harg4 arg6 x0 x1) (ix2 (⟨2, by decide⟩ : Fin 8) j)
      = max (View.canon (kernelRun0_A.sl.H3_5 (F := Ideal) c arg3 harg3 arg4 harg4 arg6 x0 x1) (ix2 (⟨2, by decide⟩ : Fin 8) j)) (loSup x0 x1 (⟨2, by decide⟩ : Fin 8) j) := by
  unfold kernelRun0_A.sl.H3_6
  refine (canon_row_eq 2 inb_S8x512_S1x512_2_0 _ _ (by decide) j).trans ?_
  refine (step_apply (kernelRun0_A.sl.r (F := Ideal) c arg4 harg4 x1)
    (View.readAt (Elt Ideal) arg3.view (Rect.unit (s := S8x128x512) ![2, 0, 0] S1x64x512.size inb_S8x128x512_S1x64x512_2_0_0).toLoadRect (harg3.unread x0))
    (kernelRun0_A.sl.v46 (F := Ideal) c arg3 harg3 arg4 harg4 arg6 x0 x1) j).trans ?_
  refine congrArg₂ max ?_ ?_
  · unfold kernelRun0_A.sl.v46
    exact readCov_row _ _ 2 inb_S8x512_S1x512_2_0 (by decide) j
  · exact chunk_lo c arg3 harg3 arg4 harg4 x0 x1 2 inb_S8x128x512_S1x64x512_2_0_0 (by decide) j

/-- Store 6 (row 2, rows 64–127 of the slab) leaves the other rows as they were. -/
theorem step7_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 2) :
    View.canon (kernelRun0_A.sl.H3_7 (F := Ideal) c arg3 harg3 arg4 harg4 arg6 x0 x1) (ix2 b j) = View.canon (kernelRun0_A.sl.H3_6 (F := Ideal) c arg3 harg3 arg4 harg4 arg6 x0 x1) (ix2 b j) := by
  unfold kernelRun0_A.sl.H3_7
  exact canon_row_ne 2 inb_S8x512_S1x512_2_0 _ _ b j h

/-- Store 6 joins row 2 with the supremum over rows 64–127 of the slab. -/
theorem step7_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_7 (F := Ideal) c arg3 harg3 arg4 harg4 arg6 x0 x1) (ix2 (⟨2, by decide⟩ : Fin 8) j)
      = max (View.canon (kernelRun0_A.sl.H3_6 (F := Ideal) c arg3 harg3 arg4 harg4 arg6 x0 x1) (ix2 (⟨2, by decide⟩ : Fin 8) j)) (hiSup x0 x1 (⟨2, by decide⟩ : Fin 8) j) := by
  unfold kernelRun0_A.sl.H3_7
  refine (canon_row_eq 2 inb_S8x512_S1x512_2_0 _ _ (by decide) j).trans ?_
  unfold kernelRun0_A.sl.r_2
  refine (step_apply (kernelRun0_A.sl.r (F := Ideal) c arg4 harg4 x1)
    (View.readAt (Elt Ideal) arg3.view (Rect.unit (s := S8x128x512) ![2, 64, 0] S1x64x512.size inb_S8x128x512_S1x64x512_2_64_0).toLoadRect (harg3.unread x0))
    (kernelRun0_A.sl.v55 (F := Ideal) c arg3 harg3 arg4 harg4 arg6 x0 x1) j).trans ?_
  refine congrArg₂ max ?_ ?_
  · unfold kernelRun0_A.sl.v55
    exact readCov_row _ _ 2 inb_S8x512_S1x512_2_0 (by decide) j
  · exact chunk_hi c arg3 harg3 arg4 harg4 x0 x1 2 inb_S8x128x512_S1x64x512_2_64_0 (by decide) j

/-- Store 7 (row 3, rows 0–63 of the slab) leaves the other rows as they were. -/
theorem step8_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 3) :
    View.canon (kernelRun0_A.sl.H3_8 (F := Ideal) c arg3 harg3 arg4 harg4 arg6 x0 x1) (ix2 b j) = View.canon (kernelRun0_A.sl.H3_7 (F := Ideal) c arg3 harg3 arg4 harg4 arg6 x0 x1) (ix2 b j) := by
  unfold kernelRun0_A.sl.H3_8
  exact canon_row_ne 3 inb_S8x512_S1x512_3_0 _ _ b j h

/-- Store 7 joins row 3 with the supremum over rows 0–63 of the slab. -/
theorem step8_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_8 (F := Ideal) c arg3 harg3 arg4 harg4 arg6 x0 x1) (ix2 (⟨3, by decide⟩ : Fin 8) j)
      = max (View.canon (kernelRun0_A.sl.H3_7 (F := Ideal) c arg3 harg3 arg4 harg4 arg6 x0 x1) (ix2 (⟨3, by decide⟩ : Fin 8) j)) (loSup x0 x1 (⟨3, by decide⟩ : Fin 8) j) := by
  unfold kernelRun0_A.sl.H3_8
  refine (canon_row_eq 3 inb_S8x512_S1x512_3_0 _ _ (by decide) j).trans ?_
  refine (step_apply (kernelRun0_A.sl.r (F := Ideal) c arg4 harg4 x1)
    (View.readAt (Elt Ideal) arg3.view (Rect.unit (s := S8x128x512) ![3, 0, 0] S1x64x512.size inb_S8x128x512_S1x64x512_3_0_0).toLoadRect (harg3.unread x0))
    (kernelRun0_A.sl.v64 (F := Ideal) c arg3 harg3 arg4 harg4 arg6 x0 x1) j).trans ?_
  refine congrArg₂ max ?_ ?_
  · unfold kernelRun0_A.sl.v64
    exact readCov_row _ _ 3 inb_S8x512_S1x512_3_0 (by decide) j
  · exact chunk_lo c arg3 harg3 arg4 harg4 x0 x1 3 inb_S8x128x512_S1x64x512_3_0_0 (by decide) j

/-- Store 8 (row 3, rows 64–127 of the slab) leaves the other rows as they were. -/
theorem step9_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 3) :
    View.canon (kernelRun0_A.sl.H3_9 (F := Ideal) c arg3 harg3 arg4 harg4 arg6 x0 x1) (ix2 b j) = View.canon (kernelRun0_A.sl.H3_8 (F := Ideal) c arg3 harg3 arg4 harg4 arg6 x0 x1) (ix2 b j) := by
  unfold kernelRun0_A.sl.H3_9
  exact canon_row_ne 3 inb_S8x512_S1x512_3_0 _ _ b j h

/-- Store 8 joins row 3 with the supremum over rows 64–127 of the slab. -/
theorem step9_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_9 (F := Ideal) c arg3 harg3 arg4 harg4 arg6 x0 x1) (ix2 (⟨3, by decide⟩ : Fin 8) j)
      = max (View.canon (kernelRun0_A.sl.H3_8 (F := Ideal) c arg3 harg3 arg4 harg4 arg6 x0 x1) (ix2 (⟨3, by decide⟩ : Fin 8) j)) (hiSup x0 x1 (⟨3, by decide⟩ : Fin 8) j) := by
  unfold kernelRun0_A.sl.H3_9
  refine (canon_row_eq 3 inb_S8x512_S1x512_3_0 _ _ (by decide) j).trans ?_
  refine (step_apply (kernelRun0_A.sl.r (F := Ideal) c arg4 harg4 x1)
    (View.readAt (Elt Ideal) arg3.view (Rect.unit (s := S8x128x512) ![3, 64, 0] S1x64x512.size inb_S8x128x512_S1x64x512_3_64_0).toLoadRect (harg3.unread x0))
    (kernelRun0_A.sl.v73 (F := Ideal) c arg3 harg3 arg4 harg4 arg6 x0 x1) j).trans ?_
  refine congrArg₂ max ?_ ?_
  · unfold kernelRun0_A.sl.v73
    exact readCov_row _ _ 3 inb_S8x512_S1x512_3_0 (by decide) j
  · exact chunk_hi c arg3 harg3 arg4 harg4 x0 x1 3 inb_S8x128x512_S1x64x512_3_64_0 (by decide) j

/-- Store 9 (row 4, rows 0–63 of the slab) leaves the other rows as they were. -/
theorem step10_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 4) :
    View.canon (kernelRun0_A.sl.H3_10 (F := Ideal) c arg3 harg3 arg4 harg4 arg6 x0 x1) (ix2 b j) = View.canon (kernelRun0_A.sl.H3_9 (F := Ideal) c arg3 harg3 arg4 harg4 arg6 x0 x1) (ix2 b j) := by
  unfold kernelRun0_A.sl.H3_10
  exact canon_row_ne 4 inb_S8x512_S1x512_4_0 _ _ b j h

/-- Store 9 joins row 4 with the supremum over rows 0–63 of the slab. -/
theorem step10_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_10 (F := Ideal) c arg3 harg3 arg4 harg4 arg6 x0 x1) (ix2 (⟨4, by decide⟩ : Fin 8) j)
      = max (View.canon (kernelRun0_A.sl.H3_9 (F := Ideal) c arg3 harg3 arg4 harg4 arg6 x0 x1) (ix2 (⟨4, by decide⟩ : Fin 8) j)) (loSup x0 x1 (⟨4, by decide⟩ : Fin 8) j) := by
  unfold kernelRun0_A.sl.H3_10
  refine (canon_row_eq 4 inb_S8x512_S1x512_4_0 _ _ (by decide) j).trans ?_
  unfold kernelRun0_A.sl.r_3
  refine (step_apply (kernelRun0_A.sl.r (F := Ideal) c arg4 harg4 x1)
    (View.readAt (Elt Ideal) arg3.view (Rect.unit (s := S8x128x512) ![4, 0, 0] S1x64x512.size inb_S8x128x512_S1x64x512_4_0_0).toLoadRect (harg3.unread x0))
    (kernelRun0_A.sl.v82 (F := Ideal) c arg3 harg3 arg4 harg4 arg6 x0 x1) j).trans ?_
  refine congrArg₂ max ?_ ?_
  · unfold kernelRun0_A.sl.v82
    exact readCov_row _ _ 4 inb_S8x512_S1x512_4_0 (by decide) j
  · exact chunk_lo c arg3 harg3 arg4 harg4 x0 x1 4 inb_S8x128x512_S1x64x512_4_0_0 (by decide) j

/-- Store 10 (row 4, rows 64–127 of the slab) leaves the other rows as they were. -/
theorem step11_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 4) :
    View.canon (kernelRun0_A.sl.H3_11 (F := Ideal) c arg3 harg3 arg4 harg4 arg6 x0 x1) (ix2 b j) = View.canon (kernelRun0_A.sl.H3_10 (F := Ideal) c arg3 harg3 arg4 harg4 arg6 x0 x1) (ix2 b j) := by
  unfold kernelRun0_A.sl.H3_11
  exact canon_row_ne 4 inb_S8x512_S1x512_4_0 _ _ b j h

/-- Store 10 joins row 4 with the supremum over rows 64–127 of the slab. -/
theorem step11_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_11 (F := Ideal) c arg3 harg3 arg4 harg4 arg6 x0 x1) (ix2 (⟨4, by decide⟩ : Fin 8) j)
      = max (View.canon (kernelRun0_A.sl.H3_10 (F := Ideal) c arg3 harg3 arg4 harg4 arg6 x0 x1) (ix2 (⟨4, by decide⟩ : Fin 8) j)) (hiSup x0 x1 (⟨4, by decide⟩ : Fin 8) j) := by
  unfold kernelRun0_A.sl.H3_11
  refine (canon_row_eq 4 inb_S8x512_S1x512_4_0 _ _ (by decide) j).trans ?_
  refine (step_apply (kernelRun0_A.sl.r (F := Ideal) c arg4 harg4 x1)
    (View.readAt (Elt Ideal) arg3.view (Rect.unit (s := S8x128x512) ![4, 64, 0] S1x64x512.size inb_S8x128x512_S1x64x512_4_64_0).toLoadRect (harg3.unread x0))
    (kernelRun0_A.sl.v91 (F := Ideal) c arg3 harg3 arg4 harg4 arg6 x0 x1) j).trans ?_
  refine congrArg₂ max ?_ ?_
  · unfold kernelRun0_A.sl.v91
    exact readCov_row _ _ 4 inb_S8x512_S1x512_4_0 (by decide) j
  · exact chunk_hi c arg3 harg3 arg4 harg4 x0 x1 4 inb_S8x128x512_S1x64x512_4_64_0 (by decide) j

/-- Store 11 (row 5, rows 0–63 of the slab) leaves the other rows as they were. -/
theorem step12_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 5) :
    View.canon (kernelRun0_A.sl.H3_12 (F := Ideal) c arg3 harg3 arg4 harg4 arg6 x0 x1) (ix2 b j) = View.canon (kernelRun0_A.sl.H3_11 (F := Ideal) c arg3 harg3 arg4 harg4 arg6 x0 x1) (ix2 b j) := by
  unfold kernelRun0_A.sl.H3_12
  exact canon_row_ne 5 inb_S8x512_S1x512_5_0 _ _ b j h

/-- Store 11 joins row 5 with the supremum over rows 0–63 of the slab. -/
theorem step12_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_12 (F := Ideal) c arg3 harg3 arg4 harg4 arg6 x0 x1) (ix2 (⟨5, by decide⟩ : Fin 8) j)
      = max (View.canon (kernelRun0_A.sl.H3_11 (F := Ideal) c arg3 harg3 arg4 harg4 arg6 x0 x1) (ix2 (⟨5, by decide⟩ : Fin 8) j)) (loSup x0 x1 (⟨5, by decide⟩ : Fin 8) j) := by
  unfold kernelRun0_A.sl.H3_12
  refine (canon_row_eq 5 inb_S8x512_S1x512_5_0 _ _ (by decide) j).trans ?_
  refine (step_apply (kernelRun0_A.sl.r (F := Ideal) c arg4 harg4 x1)
    (View.readAt (Elt Ideal) arg3.view (Rect.unit (s := S8x128x512) ![5, 0, 0] S1x64x512.size inb_S8x128x512_S1x64x512_5_0_0).toLoadRect (harg3.unread x0))
    (kernelRun0_A.sl.v100 (F := Ideal) c arg3 harg3 arg4 harg4 arg6 x0 x1) j).trans ?_
  refine congrArg₂ max ?_ ?_
  · unfold kernelRun0_A.sl.v100
    exact readCov_row _ _ 5 inb_S8x512_S1x512_5_0 (by decide) j
  · exact chunk_lo c arg3 harg3 arg4 harg4 x0 x1 5 inb_S8x128x512_S1x64x512_5_0_0 (by decide) j

/-- Store 12 (row 5, rows 64–127 of the slab) leaves the other rows as they were. -/
theorem step13_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 5) :
    View.canon (kernelRun0_A.sl.H3_13 (F := Ideal) c arg3 harg3 arg4 harg4 arg6 x0 x1) (ix2 b j) = View.canon (kernelRun0_A.sl.H3_12 (F := Ideal) c arg3 harg3 arg4 harg4 arg6 x0 x1) (ix2 b j) := by
  unfold kernelRun0_A.sl.H3_13
  exact canon_row_ne 5 inb_S8x512_S1x512_5_0 _ _ b j h

/-- Store 12 joins row 5 with the supremum over rows 64–127 of the slab. -/
theorem step13_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_13 (F := Ideal) c arg3 harg3 arg4 harg4 arg6 x0 x1) (ix2 (⟨5, by decide⟩ : Fin 8) j)
      = max (View.canon (kernelRun0_A.sl.H3_12 (F := Ideal) c arg3 harg3 arg4 harg4 arg6 x0 x1) (ix2 (⟨5, by decide⟩ : Fin 8) j)) (hiSup x0 x1 (⟨5, by decide⟩ : Fin 8) j) := by
  unfold kernelRun0_A.sl.H3_13
  refine (canon_row_eq 5 inb_S8x512_S1x512_5_0 _ _ (by decide) j).trans ?_
  unfold kernelRun0_A.sl.r_4
  refine (step_apply (kernelRun0_A.sl.r (F := Ideal) c arg4 harg4 x1)
    (View.readAt (Elt Ideal) arg3.view (Rect.unit (s := S8x128x512) ![5, 64, 0] S1x64x512.size inb_S8x128x512_S1x64x512_5_64_0).toLoadRect (harg3.unread x0))
    (kernelRun0_A.sl.v109 (F := Ideal) c arg3 harg3 arg4 harg4 arg6 x0 x1) j).trans ?_
  refine congrArg₂ max ?_ ?_
  · unfold kernelRun0_A.sl.v109
    exact readCov_row _ _ 5 inb_S8x512_S1x512_5_0 (by decide) j
  · exact chunk_hi c arg3 harg3 arg4 harg4 x0 x1 5 inb_S8x128x512_S1x64x512_5_64_0 (by decide) j

/-- Store 13 (row 6, rows 0–63 of the slab) leaves the other rows as they were. -/
theorem step14_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 6) :
    View.canon (kernelRun0_A.sl.H3_14 (F := Ideal) c arg3 harg3 arg4 harg4 arg6 x0 x1) (ix2 b j) = View.canon (kernelRun0_A.sl.H3_13 (F := Ideal) c arg3 harg3 arg4 harg4 arg6 x0 x1) (ix2 b j) := by
  unfold kernelRun0_A.sl.H3_14
  exact canon_row_ne 6 inb_S8x512_S1x512_6_0 _ _ b j h

/-- Store 13 joins row 6 with the supremum over rows 0–63 of the slab. -/
theorem step14_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_14 (F := Ideal) c arg3 harg3 arg4 harg4 arg6 x0 x1) (ix2 (⟨6, by decide⟩ : Fin 8) j)
      = max (View.canon (kernelRun0_A.sl.H3_13 (F := Ideal) c arg3 harg3 arg4 harg4 arg6 x0 x1) (ix2 (⟨6, by decide⟩ : Fin 8) j)) (loSup x0 x1 (⟨6, by decide⟩ : Fin 8) j) := by
  unfold kernelRun0_A.sl.H3_14
  refine (canon_row_eq 6 inb_S8x512_S1x512_6_0 _ _ (by decide) j).trans ?_
  refine (step_apply (kernelRun0_A.sl.r (F := Ideal) c arg4 harg4 x1)
    (View.readAt (Elt Ideal) arg3.view (Rect.unit (s := S8x128x512) ![6, 0, 0] S1x64x512.size inb_S8x128x512_S1x64x512_6_0_0).toLoadRect (harg3.unread x0))
    (kernelRun0_A.sl.v118 (F := Ideal) c arg3 harg3 arg4 harg4 arg6 x0 x1) j).trans ?_
  refine congrArg₂ max ?_ ?_
  · unfold kernelRun0_A.sl.v118
    exact readCov_row _ _ 6 inb_S8x512_S1x512_6_0 (by decide) j
  · exact chunk_lo c arg3 harg3 arg4 harg4 x0 x1 6 inb_S8x128x512_S1x64x512_6_0_0 (by decide) j

/-- Store 14 (row 6, rows 64–127 of the slab) leaves the other rows as they were. -/
theorem step15_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 6) :
    View.canon (kernelRun0_A.sl.H3_15 (F := Ideal) c arg3 harg3 arg4 harg4 arg6 x0 x1) (ix2 b j) = View.canon (kernelRun0_A.sl.H3_14 (F := Ideal) c arg3 harg3 arg4 harg4 arg6 x0 x1) (ix2 b j) := by
  unfold kernelRun0_A.sl.H3_15
  exact canon_row_ne 6 inb_S8x512_S1x512_6_0 _ _ b j h

/-- Store 14 joins row 6 with the supremum over rows 64–127 of the slab. -/
theorem step15_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_15 (F := Ideal) c arg3 harg3 arg4 harg4 arg6 x0 x1) (ix2 (⟨6, by decide⟩ : Fin 8) j)
      = max (View.canon (kernelRun0_A.sl.H3_14 (F := Ideal) c arg3 harg3 arg4 harg4 arg6 x0 x1) (ix2 (⟨6, by decide⟩ : Fin 8) j)) (hiSup x0 x1 (⟨6, by decide⟩ : Fin 8) j) := by
  unfold kernelRun0_A.sl.H3_15
  refine (canon_row_eq 6 inb_S8x512_S1x512_6_0 _ _ (by decide) j).trans ?_
  refine (step_apply (kernelRun0_A.sl.r (F := Ideal) c arg4 harg4 x1)
    (View.readAt (Elt Ideal) arg3.view (Rect.unit (s := S8x128x512) ![6, 64, 0] S1x64x512.size inb_S8x128x512_S1x64x512_6_64_0).toLoadRect (harg3.unread x0))
    (kernelRun0_A.sl.v127 (F := Ideal) c arg3 harg3 arg4 harg4 arg6 x0 x1) j).trans ?_
  refine congrArg₂ max ?_ ?_
  · unfold kernelRun0_A.sl.v127
    exact readCov_row _ _ 6 inb_S8x512_S1x512_6_0 (by decide) j
  · exact chunk_hi c arg3 harg3 arg4 harg4 x0 x1 6 inb_S8x128x512_S1x64x512_6_64_0 (by decide) j

/-- Store 15 (row 7, rows 0–63 of the slab) leaves the other rows as they were. -/
theorem step16_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 7) :
    View.canon (kernelRun0_A.sl.H3_16 (F := Ideal) c arg3 harg3 arg4 harg4 arg6 x0 x1) (ix2 b j) = View.canon (kernelRun0_A.sl.H3_15 (F := Ideal) c arg3 harg3 arg4 harg4 arg6 x0 x1) (ix2 b j) := by
  unfold kernelRun0_A.sl.H3_16
  exact canon_row_ne 7 inb_S8x512_S1x512_7_0 _ _ b j h

/-- Store 15 joins row 7 with the supremum over rows 0–63 of the slab. -/
theorem step16_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_16 (F := Ideal) c arg3 harg3 arg4 harg4 arg6 x0 x1) (ix2 (⟨7, by decide⟩ : Fin 8) j)
      = max (View.canon (kernelRun0_A.sl.H3_15 (F := Ideal) c arg3 harg3 arg4 harg4 arg6 x0 x1) (ix2 (⟨7, by decide⟩ : Fin 8) j)) (loSup x0 x1 (⟨7, by decide⟩ : Fin 8) j) := by
  unfold kernelRun0_A.sl.H3_16
  refine (canon_row_eq 7 inb_S8x512_S1x512_7_0 _ _ (by decide) j).trans ?_
  refine (step_apply (kernelRun0_A.sl.r (F := Ideal) c arg4 harg4 x1)
    (View.readAt (Elt Ideal) arg3.view (Rect.unit (s := S8x128x512) ![7, 0, 0] S1x64x512.size inb_S8x128x512_S1x64x512_7_0_0).toLoadRect (harg3.unread x0))
    (kernelRun0_A.sl.v136 (F := Ideal) c arg3 harg3 arg4 harg4 arg6 x0 x1) j).trans ?_
  refine congrArg₂ max ?_ ?_
  · unfold kernelRun0_A.sl.v136
    exact readCov_row _ _ 7 inb_S8x512_S1x512_7_0 (by decide) j
  · exact chunk_lo c arg3 harg3 arg4 harg4 x0 x1 7 inb_S8x128x512_S1x64x512_7_0_0 (by decide) j

/-- Store 16 (row 7, rows 64–127 of the slab) leaves the other rows as they were. -/
theorem step17_ne (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (b : Fin 8) (j : Fin 512) (h : b.val ≠ 7) :
    View.canon (kernelRun0_A.sl.H3_17 (F := Ideal) c arg3 harg3 arg4 harg4 arg6 x0 x1) (ix2 b j) = View.canon (kernelRun0_A.sl.H3_16 (F := Ideal) c arg3 harg3 arg4 harg4 arg6 x0 x1) (ix2 b j) := by
  unfold kernelRun0_A.sl.H3_17
  exact canon_row_ne 7 inb_S8x512_S1x512_7_0 _ _ b j h

/-- Store 16 joins row 7 with the supremum over rows 64–127 of the slab. -/
theorem step17_eq (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨7, by decide⟩ : Fin 8) j)
      = max (View.canon (kernelRun0_A.sl.H3_16 (F := Ideal) c arg3 harg3 arg4 harg4 arg6 x0 x1) (ix2 (⟨7, by decide⟩ : Fin 8) j)) (hiSup x0 x1 (⟨7, by decide⟩ : Fin 8) j) := by
  unfold kernelRun0_A.sl.H3_17
  refine (canon_row_eq 7 inb_S8x512_S1x512_7_0 _ _ (by decide) j).trans ?_
  refine (step_apply (kernelRun0_A.sl.r (F := Ideal) c arg4 harg4 x1)
    (View.readAt (Elt Ideal) arg3.view (Rect.unit (s := S8x128x512) ![7, 64, 0] S1x64x512.size inb_S8x128x512_S1x64x512_7_64_0).toLoadRect (harg3.unread x0))
    (kernelRun0_A.sl.v145 (F := Ideal) c arg3 harg3 arg4 harg4 arg6 x0 x1) j).trans ?_
  refine congrArg₂ max ?_ ?_
  · unfold kernelRun0_A.sl.v145
    exact readCov_row _ _ 7 inb_S8x512_S1x512_7_0 (by decide) j
  · exact chunk_hi c arg3 harg3 arg4 harg4 x0 x1 7 inb_S8x128x512_S1x64x512_7_64_0 (by decide) j

/-- Row 0 after the sixteen row stores: -∞ joined with the suprema over the two halves of its slab. -/
theorem row0_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨0, by decide⟩ : Fin 8) j) = max (max ⊥ (loSup x0 x1 (⟨0, by decide⟩ : Fin 8) j)) (hiSup x0 x1 (⟨0, by decide⟩ : Fin 8) j) := by
  rw [step17_ne c arg3 harg3 arg4 harg4 arg6 x0 x1 _ j (by decide),
    step16_ne c arg3 harg3 arg4 harg4 arg6 x0 x1 _ j (by decide),
    step15_ne c arg3 harg3 arg4 harg4 arg6 x0 x1 _ j (by decide),
    step14_ne c arg3 harg3 arg4 harg4 arg6 x0 x1 _ j (by decide),
    step13_ne c arg3 harg3 arg4 harg4 arg6 x0 x1 _ j (by decide),
    step12_ne c arg3 harg3 arg4 harg4 arg6 x0 x1 _ j (by decide),
    step11_ne c arg3 harg3 arg4 harg4 arg6 x0 x1 _ j (by decide),
    step10_ne c arg3 harg3 arg4 harg4 arg6 x0 x1 _ j (by decide),
    step9_ne c arg3 harg3 arg4 harg4 arg6 x0 x1 _ j (by decide),
    step8_ne c arg3 harg3 arg4 harg4 arg6 x0 x1 _ j (by decide),
    step7_ne c arg3 harg3 arg4 harg4 arg6 x0 x1 _ j (by decide),
    step6_ne c arg3 harg3 arg4 harg4 arg6 x0 x1 _ j (by decide),
    step5_ne c arg3 harg3 arg4 harg4 arg6 x0 x1 _ j (by decide),
    step4_ne c arg3 harg3 arg4 harg4 arg6 x0 x1 _ j (by decide),
    step3_eq c arg3 harg3 arg4 harg4 arg6 x0 x1 j,
    step2_eq c arg3 harg3 arg4 harg4 arg6 x0 x1 j,
    base_apply]

/-- Row 1 after the sixteen row stores: -∞ joined with the suprema over the two halves of its slab. -/
theorem row1_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨1, by decide⟩ : Fin 8) j) = max (max ⊥ (loSup x0 x1 (⟨1, by decide⟩ : Fin 8) j)) (hiSup x0 x1 (⟨1, by decide⟩ : Fin 8) j) := by
  rw [step17_ne c arg3 harg3 arg4 harg4 arg6 x0 x1 _ j (by decide),
    step16_ne c arg3 harg3 arg4 harg4 arg6 x0 x1 _ j (by decide),
    step15_ne c arg3 harg3 arg4 harg4 arg6 x0 x1 _ j (by decide),
    step14_ne c arg3 harg3 arg4 harg4 arg6 x0 x1 _ j (by decide),
    step13_ne c arg3 harg3 arg4 harg4 arg6 x0 x1 _ j (by decide),
    step12_ne c arg3 harg3 arg4 harg4 arg6 x0 x1 _ j (by decide),
    step11_ne c arg3 harg3 arg4 harg4 arg6 x0 x1 _ j (by decide),
    step10_ne c arg3 harg3 arg4 harg4 arg6 x0 x1 _ j (by decide),
    step9_ne c arg3 harg3 arg4 harg4 arg6 x0 x1 _ j (by decide),
    step8_ne c arg3 harg3 arg4 harg4 arg6 x0 x1 _ j (by decide),
    step7_ne c arg3 harg3 arg4 harg4 arg6 x0 x1 _ j (by decide),
    step6_ne c arg3 harg3 arg4 harg4 arg6 x0 x1 _ j (by decide),
    step5_eq c arg3 harg3 arg4 harg4 arg6 x0 x1 j,
    step4_eq c arg3 harg3 arg4 harg4 arg6 x0 x1 j,
    step3_ne c arg3 harg3 arg4 harg4 arg6 x0 x1 _ j (by decide),
    step2_ne c arg3 harg3 arg4 harg4 arg6 x0 x1 _ j (by decide),
    base_apply]

/-- Row 2 after the sixteen row stores: -∞ joined with the suprema over the two halves of its slab. -/
theorem row2_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨2, by decide⟩ : Fin 8) j) = max (max ⊥ (loSup x0 x1 (⟨2, by decide⟩ : Fin 8) j)) (hiSup x0 x1 (⟨2, by decide⟩ : Fin 8) j) := by
  rw [step17_ne c arg3 harg3 arg4 harg4 arg6 x0 x1 _ j (by decide),
    step16_ne c arg3 harg3 arg4 harg4 arg6 x0 x1 _ j (by decide),
    step15_ne c arg3 harg3 arg4 harg4 arg6 x0 x1 _ j (by decide),
    step14_ne c arg3 harg3 arg4 harg4 arg6 x0 x1 _ j (by decide),
    step13_ne c arg3 harg3 arg4 harg4 arg6 x0 x1 _ j (by decide),
    step12_ne c arg3 harg3 arg4 harg4 arg6 x0 x1 _ j (by decide),
    step11_ne c arg3 harg3 arg4 harg4 arg6 x0 x1 _ j (by decide),
    step10_ne c arg3 harg3 arg4 harg4 arg6 x0 x1 _ j (by decide),
    step9_ne c arg3 harg3 arg4 harg4 arg6 x0 x1 _ j (by decide),
    step8_ne c arg3 harg3 arg4 harg4 arg6 x0 x1 _ j (by decide),
    step7_eq c arg3 harg3 arg4 harg4 arg6 x0 x1 j,
    step6_eq c arg3 harg3 arg4 harg4 arg6 x0 x1 j,
    step5_ne c arg3 harg3 arg4 harg4 arg6 x0 x1 _ j (by decide),
    step4_ne c arg3 harg3 arg4 harg4 arg6 x0 x1 _ j (by decide),
    step3_ne c arg3 harg3 arg4 harg4 arg6 x0 x1 _ j (by decide),
    step2_ne c arg3 harg3 arg4 harg4 arg6 x0 x1 _ j (by decide),
    base_apply]

/-- Row 3 after the sixteen row stores: -∞ joined with the suprema over the two halves of its slab. -/
theorem row3_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨3, by decide⟩ : Fin 8) j) = max (max ⊥ (loSup x0 x1 (⟨3, by decide⟩ : Fin 8) j)) (hiSup x0 x1 (⟨3, by decide⟩ : Fin 8) j) := by
  rw [step17_ne c arg3 harg3 arg4 harg4 arg6 x0 x1 _ j (by decide),
    step16_ne c arg3 harg3 arg4 harg4 arg6 x0 x1 _ j (by decide),
    step15_ne c arg3 harg3 arg4 harg4 arg6 x0 x1 _ j (by decide),
    step14_ne c arg3 harg3 arg4 harg4 arg6 x0 x1 _ j (by decide),
    step13_ne c arg3 harg3 arg4 harg4 arg6 x0 x1 _ j (by decide),
    step12_ne c arg3 harg3 arg4 harg4 arg6 x0 x1 _ j (by decide),
    step11_ne c arg3 harg3 arg4 harg4 arg6 x0 x1 _ j (by decide),
    step10_ne c arg3 harg3 arg4 harg4 arg6 x0 x1 _ j (by decide),
    step9_eq c arg3 harg3 arg4 harg4 arg6 x0 x1 j,
    step8_eq c arg3 harg3 arg4 harg4 arg6 x0 x1 j,
    step7_ne c arg3 harg3 arg4 harg4 arg6 x0 x1 _ j (by decide),
    step6_ne c arg3 harg3 arg4 harg4 arg6 x0 x1 _ j (by decide),
    step5_ne c arg3 harg3 arg4 harg4 arg6 x0 x1 _ j (by decide),
    step4_ne c arg3 harg3 arg4 harg4 arg6 x0 x1 _ j (by decide),
    step3_ne c arg3 harg3 arg4 harg4 arg6 x0 x1 _ j (by decide),
    step2_ne c arg3 harg3 arg4 harg4 arg6 x0 x1 _ j (by decide),
    base_apply]

/-- Row 4 after the sixteen row stores: -∞ joined with the suprema over the two halves of its slab. -/
theorem row4_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨4, by decide⟩ : Fin 8) j) = max (max ⊥ (loSup x0 x1 (⟨4, by decide⟩ : Fin 8) j)) (hiSup x0 x1 (⟨4, by decide⟩ : Fin 8) j) := by
  rw [step17_ne c arg3 harg3 arg4 harg4 arg6 x0 x1 _ j (by decide),
    step16_ne c arg3 harg3 arg4 harg4 arg6 x0 x1 _ j (by decide),
    step15_ne c arg3 harg3 arg4 harg4 arg6 x0 x1 _ j (by decide),
    step14_ne c arg3 harg3 arg4 harg4 arg6 x0 x1 _ j (by decide),
    step13_ne c arg3 harg3 arg4 harg4 arg6 x0 x1 _ j (by decide),
    step12_ne c arg3 harg3 arg4 harg4 arg6 x0 x1 _ j (by decide),
    step11_eq c arg3 harg3 arg4 harg4 arg6 x0 x1 j,
    step10_eq c arg3 harg3 arg4 harg4 arg6 x0 x1 j,
    step9_ne c arg3 harg3 arg4 harg4 arg6 x0 x1 _ j (by decide),
    step8_ne c arg3 harg3 arg4 harg4 arg6 x0 x1 _ j (by decide),
    step7_ne c arg3 harg3 arg4 harg4 arg6 x0 x1 _ j (by decide),
    step6_ne c arg3 harg3 arg4 harg4 arg6 x0 x1 _ j (by decide),
    step5_ne c arg3 harg3 arg4 harg4 arg6 x0 x1 _ j (by decide),
    step4_ne c arg3 harg3 arg4 harg4 arg6 x0 x1 _ j (by decide),
    step3_ne c arg3 harg3 arg4 harg4 arg6 x0 x1 _ j (by decide),
    step2_ne c arg3 harg3 arg4 harg4 arg6 x0 x1 _ j (by decide),
    base_apply]

/-- Row 5 after the sixteen row stores: -∞ joined with the suprema over the two halves of its slab. -/
theorem row5_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨5, by decide⟩ : Fin 8) j) = max (max ⊥ (loSup x0 x1 (⟨5, by decide⟩ : Fin 8) j)) (hiSup x0 x1 (⟨5, by decide⟩ : Fin 8) j) := by
  rw [step17_ne c arg3 harg3 arg4 harg4 arg6 x0 x1 _ j (by decide),
    step16_ne c arg3 harg3 arg4 harg4 arg6 x0 x1 _ j (by decide),
    step15_ne c arg3 harg3 arg4 harg4 arg6 x0 x1 _ j (by decide),
    step14_ne c arg3 harg3 arg4 harg4 arg6 x0 x1 _ j (by decide),
    step13_eq c arg3 harg3 arg4 harg4 arg6 x0 x1 j,
    step12_eq c arg3 harg3 arg4 harg4 arg6 x0 x1 j,
    step11_ne c arg3 harg3 arg4 harg4 arg6 x0 x1 _ j (by decide),
    step10_ne c arg3 harg3 arg4 harg4 arg6 x0 x1 _ j (by decide),
    step9_ne c arg3 harg3 arg4 harg4 arg6 x0 x1 _ j (by decide),
    step8_ne c arg3 harg3 arg4 harg4 arg6 x0 x1 _ j (by decide),
    step7_ne c arg3 harg3 arg4 harg4 arg6 x0 x1 _ j (by decide),
    step6_ne c arg3 harg3 arg4 harg4 arg6 x0 x1 _ j (by decide),
    step5_ne c arg3 harg3 arg4 harg4 arg6 x0 x1 _ j (by decide),
    step4_ne c arg3 harg3 arg4 harg4 arg6 x0 x1 _ j (by decide),
    step3_ne c arg3 harg3 arg4 harg4 arg6 x0 x1 _ j (by decide),
    step2_ne c arg3 harg3 arg4 harg4 arg6 x0 x1 _ j (by decide),
    base_apply]

/-- Row 6 after the sixteen row stores: -∞ joined with the suprema over the two halves of its slab. -/
theorem row6_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨6, by decide⟩ : Fin 8) j) = max (max ⊥ (loSup x0 x1 (⟨6, by decide⟩ : Fin 8) j)) (hiSup x0 x1 (⟨6, by decide⟩ : Fin 8) j) := by
  rw [step17_ne c arg3 harg3 arg4 harg4 arg6 x0 x1 _ j (by decide),
    step16_ne c arg3 harg3 arg4 harg4 arg6 x0 x1 _ j (by decide),
    step15_eq c arg3 harg3 arg4 harg4 arg6 x0 x1 j,
    step14_eq c arg3 harg3 arg4 harg4 arg6 x0 x1 j,
    step13_ne c arg3 harg3 arg4 harg4 arg6 x0 x1 _ j (by decide),
    step12_ne c arg3 harg3 arg4 harg4 arg6 x0 x1 _ j (by decide),
    step11_ne c arg3 harg3 arg4 harg4 arg6 x0 x1 _ j (by decide),
    step10_ne c arg3 harg3 arg4 harg4 arg6 x0 x1 _ j (by decide),
    step9_ne c arg3 harg3 arg4 harg4 arg6 x0 x1 _ j (by decide),
    step8_ne c arg3 harg3 arg4 harg4 arg6 x0 x1 _ j (by decide),
    step7_ne c arg3 harg3 arg4 harg4 arg6 x0 x1 _ j (by decide),
    step6_ne c arg3 harg3 arg4 harg4 arg6 x0 x1 _ j (by decide),
    step5_ne c arg3 harg3 arg4 harg4 arg6 x0 x1 _ j (by decide),
    step4_ne c arg3 harg3 arg4 harg4 arg6 x0 x1 _ j (by decide),
    step3_ne c arg3 harg3 arg4 harg4 arg6 x0 x1 _ j (by decide),
    step2_ne c arg3 harg3 arg4 harg4 arg6 x0 x1 _ j (by decide),
    base_apply]

/-- Row 7 after the sixteen row stores: -∞ joined with the suprema over the two halves of its slab. -/
theorem row7_apply (c : Dev nD) (arg3 : Memref sig .tc .vmem S8x128x512 .f32) (harg3 : arg3.IsWhole) (arg4 : Memref sig .tc .vmem S512x512 .f32) (harg4 : arg4.IsWhole) (arg6 : Memref sig .tc .vmem S8x512 .f32) (x0 : Vec Ideal S8x128x512 .f32) (x1 : Vec Ideal S512x512 .f32) (j : Fin 512) :
    View.canon (kernelRun0_A.sl.H3_17 (F := Ideal) c arg3 harg3 arg4 harg4 arg6 x0 x1) (ix2 (⟨7, by decide⟩ : Fin 8) j) = max (max ⊥ (loSup x0 x1 (⟨7, by decide⟩ : Fin 8) j)) (hiSup x0 x1 (⟨7, by decide⟩ : Fin 8) j) := by
  rw [step17_eq c arg3 harg3 arg4 harg4 arg6 x0 x1 j,
    step16_eq c arg3 harg3 arg4 harg4 arg6 x0 x1 j,
    step15_ne c arg3 harg3 arg4 harg4 arg6 x0 x1 _ j (by decide),
    step14_ne c arg3 harg3 arg4 harg4 arg6 x0 x1 _ j (by decide),
    step13_ne c arg3 harg3 arg4 harg4 arg6 x0 x1 _ j (by decide),
    step12_ne c arg3 harg3 arg4 harg4 arg6 x0 x1 _ j (by decide),
    step11_ne c arg3 harg3 arg4 harg4 arg6 x0 x1 _ j (by decide),
    step10_ne c arg3 harg3 arg4 harg4 arg6 x0 x1 _ j (by decide),
    step9_ne c arg3 harg3 arg4 harg4 arg6 x0 x1 _ j (by decide),
    step8_ne c arg3 harg3 arg4 harg4 arg6 x0 x1 _ j (by decide),
    step7_ne c arg3 harg3 arg4 harg4 arg6 x0 x1 _ j (by decide),
    step6_ne c arg3 harg3 arg4 harg4 arg6 x0 x1 _ j (by decide),
    step5_ne c arg3 harg3 arg4 harg4 arg6 x0 x1 _ j (by decide),
    step4_ne c arg3 harg3 arg4 harg4 arg6 x0 x1 _ j (by decide),
    step3_ne c arg3 harg3 arg4 harg4 arg6 x0 x1 _ j (by decide),
    step2_ne c arg3 harg3 arg4 harg4 arg6 x0 x1 _ j (by decide),
    base_apply]

end Cert.ReferenceIdeal.RefValue

end
-- ==== Proof.RefBlock.lean ====
/-
  The output block the body leaves, entry by entry, as a function of the three input blocks.

  The last store writes the whole 8 × 512 block: what the sixteen row stores left, plus the bias row, clamped below
  at zero.  Row b of what the row stores left is the join of -∞ with the suprema over the two halves of the 128 rows
  of sequence b, which is the supremum over all 128 rows.  So entry (b, j) of the block is

      max ((sup over l < 128 of ∑ k, x (b, l, k) · w (k, j)) + bias (0, j)) 0.
-/
import proofs.«136681_g2000706673400859_pallasbulk_1295_21_alg».proof.Proof.Gen.ReferenceIdeal.Frame
import proofs.«136681_g2000706673400859_pallasbulk_1295_21_alg».proof.Proof.RefPieces
import proofs.«136681_g2000706673400859_pallasbulk_1295_21_alg».proof.Proof.LibMaxMid

set_option maxRecDepth 16384

noncomputable section

open scoped BigOperators

namespace Cert.ReferenceIdeal.RefValue

open Cert.ReferenceIdeal Cert.ReferenceIdeal.Gen Idealize.ShloMosaic Idealize.ShloMosaic.TcCoe Idealize.ShloMosaic.ValueIdx

/-- Entry (b, j) of the block computed from an 8 × 128 × 512 input block, the weight and the bias row. -/
def blockVal (x0 : S8x128x512.Idx → EReal) (x1 : S512x512.Idx → EReal) (x2 : S1x512.Idx → EReal) (b : Fin 8) (j : Fin 512) : EReal :=
  max ((Finset.univ.sup fun l : Fin 128 => ∑ k : Fin 512, x0 (ix3 b l k) * x1 (ix2 k j)) + x2 (ix2 (0 : Fin 1) j)) 0

/-- The join of -∞ with the suprema over rows 0–63 and rows 64–127 is the supremum over the 128 rows. -/
theorem halves (x0 : S8x128x512.Idx → EReal) (x1 : S512x512.Idx → EReal) (b : Fin 8) (j : Fin 512) :
    max (max ⊥ (loSup x0 x1 b j)) (hiSup x0 x1 b j)
      = Finset.univ.sup fun l : Fin 128 => ∑ k : Fin 512, x0 (ix3 b l k) * x1 (ix2 k j) := by
  rw [max_bot_left]
  unfold loSup hiSup
  exact (MaxMid.sup_add (m := 64) (n := 64) (fun l : Fin 128 => ∑ k : Fin 512, x0 (ix3 b l k) * x1 (ix2 k j))).symm

/-- The block is the finish applied to what the row stores left. -/
theorem block_acc (c : Dev nD) (i : grid0.Coords) (arg3 : Memref sig .tc .vmem S8x128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S8x512 .f32) (harg6 : arg6.IsWhole) (hc0 : cond0_0 i) (hc1 : cond0_1 i) (x0 : Vec Ideal S8x128x512 .f32) (x1 : Vec Ideal S512x512 .f32) (x2 : Vec Ideal S1x512 .f32) (b : Fin 8) (j : Fin 512) :
    out0_A_3 (F := Ideal) c i arg3 harg3 arg4 harg4 arg5 harg5 arg6 harg6 hc0 hc1 x0 x1 x2 (ix2 b j)
      = max (View.canon (kernelRun0_A.sl.H3_17 (F := Ideal) c arg3 harg3 arg4 harg4 arg6 x0 x1) (ix2 b j) + x2 (ix2 (0 : Fin 1) j)) 0 := by
  unfold out0_A_3
  rw [View.read_writes_eq_canon _ _ _ (cover0_A_3 c i arg3 harg3 arg4 harg4 arg5 harg5 arg6 harg6 hc0 hc1 x0 x1 x2)]
  unfold kernelRun0_A
  dsimp only
  refine (congrFun (View.canon_cons_unit_zero (S := S8x512) hz2 inb_S8x512_S8x512_0_0 _ _) (ix2 b j)).trans ?_
  refine (finish_apply _ _ b j).trans ?_
  refine congrArg₂ (fun u v : EReal => max (u + v) 0) ?_ ?_
  · unfold kernelRun0_A.sl.v152
    exact readCov_whole _ _ inb_S8x512_S8x512_0_0 (ix2 b j)
  · rw [View.readAt_eq_ld, harg5.read_unread, View.ld_unit_zero (S := S1x512) hz2]

/-- Entry (b, j) of the block the body leaves. -/
theorem block_apply (c : Dev nD) (i : grid0.Coords) (arg3 : Memref sig .tc .vmem S8x128x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S8x512 .f32) (harg6 : arg6.IsWhole) (hc0 : cond0_0 i) (hc1 : cond0_1 i) (x0 : Vec Ideal S8x128x512 .f32) (x1 : Vec Ideal S512x512 .f32) (x2 : Vec Ideal S1x512 .f32) (b : Fin 8) (j : Fin 512) :
    out0_A_3 (F := Ideal) c i arg3 harg3 arg4 harg4 arg5 harg5 arg6 harg6 hc0 hc1 x0 x1 x2 (ix2 b j) = blockVal x0 x1 x2 b j := by
  rw [block_acc]
  unfold blockVal
  rw [← halves x0 x1 b j]
  refine congrArg (fun u : EReal => max (u + x2 (ix2 (0 : Fin 1) j)) 0) ?_
  match b with
  | ⟨0, _⟩ => exact row0_apply c arg3 harg3 arg4 harg4 arg6 x0 x1 j
  | ⟨1, _⟩ => exact row1_apply c arg3 harg3 arg4 harg4 arg6 x0 x1 j
  | ⟨2, _⟩ => exact row2_apply c arg3 harg3 arg4 harg4 arg6 x0 x1 j
  | ⟨3, _⟩ => exact row3_apply c arg3 harg3 arg4 harg4 arg6 x0 x1 j
  | ⟨4, _⟩ => exact row4_apply c arg3 harg3 arg4 harg4 arg6 x0 x1 j
  | ⟨5, _⟩ => exact row5_apply c arg3 harg3 arg4 harg4 arg6 x0 x1 j
  | ⟨6, _⟩ => exact row6_apply c arg3 harg3 arg4 harg4 arg6 x0 x1 j
  | ⟨7, _⟩ => exact row7_apply c arg3 harg3 arg4 harg4 arg6 x0 x1 j
  | ⟨n + 8, h⟩ => exact absurd h (by omega)

end Cert.ReferenceIdeal.RefValue

end
-- ==== Proof.RefSide.lean ====
/-
  From the output blocks to the whole result array, and the reference's run.

  The 1024 sequences are processed 8 at a time: grid point t stages sequences 8 t … 8 t + 7 (a block of
  8 × 128 × 512), the whole 512 × 512 weight and the whole bias row, and writes back rows 8 t … 8 t + 7 of the
  1024 × 512 result.  The weight and the bias the body sees are zero-width paddings of the arguments, that is, the
  arguments themselves.  Entry (b, j) of the block written at point t is the pooled entry (8 t + b, j) of the
  arguments; the 128 blocks tile the result (row r lies in the block of point r / 8), so the result array is the
  pooled array.
-/
import proofs.«136681_g2000706673400859_pallasbulk_1295_21_alg».proof.Defs
import proofs.«136681_g2000706673400859_pallasbulk_1295_21_alg».proof.Proof.Gen.ReferenceIdeal.Frame
import proofs.«136681_g2000706673400859_pallasbulk_1295_21_alg».proof.Proof.Gen.ReferenceIdeal.Value
import proofs.«136681_g2000706673400859_pallasbulk_1295_21_alg».proof.Proof.Spec
import proofs.«136681_g2000706673400859_pallasbulk_1295_21_alg».proof.Proof.RefBlock
import Idealize.ShloMosaic.Lib.KernelVsHost
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx
open Idealize.ShloMosaic.Tactic
open Idealize.ShloMosaic.Pipeline (Dat)

variable (m : (ℓ : Loc nD τ sig) → Buf (Elt Ideal) ℓ) (ρ : Dev nD → PrngReg)

/-! ## The weight and the bias as the region finds them -/

/-- A rank-2 array padded by nothing on every side is the array. -/
theorem pad_none {n0 n1 : ℕ} {α : Type} (x : (⟨2, ![n0, n1]⟩ : Shape).Idx → α) {u : Shape} (v : u.Idx → α)
    (h : (⟨2, ![n0, n1]⟩ : Shape).Pads (![0, 0] : Fin 2 → ℕ) ![0, 0] ![0, 0] ⟨2, ![n0, n1]⟩) (hu : 0 < u.numel) :
    pad ⟨2, ![n0, n1]⟩ ![0, 0] ![0, 0] ![0, 0] x v h hu = x :=
  funext fun j => pad_apply_of_inside _ _ _ x v h hu j j fun a => by
    match a with
    | ⟨0, _⟩ => show (j 0).val = 0 + (j 0).val * (0 + 1); omega
    | ⟨1, _⟩ => show (j 1).val = 0 + (j 1).val * (0 + 1); omega

/-- The weight the region stages is the weight argument. -/
theorem V_weight (c : Dev nD) :
    (V (F := Ideal) m c main_v0 : S512x512.Idx → EReal) = ((m ((c : Thread nD τ).loc main_arg1)) : S512x512.Idx → EReal) := by
  have e : (V (F := Ideal) m c main_v0 : S512x512.Idx → EReal)
      = pad S512x512 ![0, 0] ![0, 0] ![0, 0] ((m ((c : Thread nD τ).loc main_arg1)) : S512x512.Idx → EReal)
          (sitofp (F := Ideal) .f32 (constantI S_ 32 0#32)) pads_S512x512_S512x512_000_000 h_S_ := by
    dsimp only [Gen.V]
    simp only [Gen.hostOps0, Gen.hostOps0_1, Gen.hostOps0_2, Gen.hostOps0_3, List.flatten_cons, List.flatten_nil, List.append_nil, List.cons_append, List.nil_append]
    after_results
    rfl
  rw [e]
  exact pad_none _ _ _ _

/-- The bias the region stages is the bias argument. -/
theorem V_bias (c : Dev nD) :
    (V (F := Ideal) m c main_v1 : S1x512.Idx → EReal) = ((m ((c : Thread nD τ).loc main_arg2)) : S1x512.Idx → EReal) := by
  have e : (V (F := Ideal) m c main_v1 : S1x512.Idx → EReal)
      = pad S1x512 ![0, 0] ![0, 0] ![0, 0] ((m ((c : Thread nD τ).loc main_arg2)) : S1x512.Idx → EReal)
          (sitofp (F := Ideal) .f32 (constantI S_ 32 0#32)) pads_S1x512_S1x512_000_000 h_S_ := by
    dsimp only [Gen.V]
    simp only [Gen.hostOps0, Gen.hostOps0_1, Gen.hostOps0_2, Gen.hostOps0_3, List.flatten_cons, List.flatten_nil, List.append_nil, List.cons_append, List.nil_append]
    after_results
    rfl
  rw [e]
  exact pad_none _ _ _ _

/-! ## Where each window's block sits -/

/-- The printed index maps, decided over the 128 grid points: the input block and the output block of point `t` are
    the `t`-th along the first axis; the weight and the bias are staged whole. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (b, l, k) of the input block of point `t` is entry (8 t + b, l, k) of the first argument. -/
theorem iblk0_apply (c : Dev nD) (t : Fin cfg0.N) (b : Fin 8) (l : Fin 128) (k : Fin 512) (B : Fin 1024) (hB : B.val = t.val * 8 + b.val) :
    (iblk (F := Ideal) m c 0 t : S8x128x512.Idx → EReal) (ix3 b l k) = ((m ((c : Thread nD τ).loc main_arg0)) : S1024x128x512.Idx → EReal) (ix3 B l k) := by
  show V (F := Ideal) m c main_arg0 (((cfg0.win 0).blk t).view.emb (ix3 b l k)) = _
  rw [V_main_arg0]
  obtain ⟨e0, e1, e2, -⟩ := idx_facts t
  refine congrArg (m ((c : Thread nD τ).loc main_arg0)) (funext fun a => Fin.ext ?_)
  match a with
  | ⟨0, _⟩ => show win0_0.index t (0 : Fin 3) * 8 + 1 * b.val = B.val; omega
  | ⟨1, _⟩ => show win0_0.index t (1 : Fin 3) * 128 + 1 * l.val = l.val; omega
  | ⟨2, _⟩ => show win0_0.index t (2 : Fin 3) * 512 + 1 * k.val = k.val; omega

/-- The weight block of every point is the weight argument. -/
theorem iblk1_apply (c : Dev nD) (t : Fin cfg0.N) (k : Fin 512) (j : Fin 512) :
    (iblk (F := Ideal) m c 1 t : S512x512.Idx → EReal) (ix2 k j) = ((m ((c : Thread nD τ).loc main_arg1)) : S512x512.Idx → EReal) (ix2 k j) := by
  show (V (F := Ideal) m c main_v0 : S512x512.Idx → EReal) (((cfg0.win 1).blk t).view.emb (ix2 k j)) = _
  rw [V_weight]
  obtain ⟨-, -, -, e3, e4, -⟩ := idx_facts t
  refine congrArg (m ((c : Thread nD τ).loc main_arg1)) (funext fun a => Fin.ext ?_)
  match a with
  | ⟨0, _⟩ => show win0_1.index t (0 : Fin 2) * 512 + 1 * k.val = k.val; omega
  | ⟨1, _⟩ => show win0_1.index t (1 : Fin 2) * 512 + 1 * j.val = j.val; omega

/-- The bias block of every point is the bias argument. -/
theorem iblk2_apply (c : Dev nD) (t : Fin cfg0.N) (j : Fin 512) :
    (iblk (F := Ideal) m c 2 t : S1x512.Idx → EReal) (ix2 (0 : Fin 1) j) = ((m ((c : Thread nD τ).loc main_arg2)) : S1x512.Idx → EReal) (ix2 (0 : Fin 1) j) := by
  show (V (F := Ideal) m c main_v1 : S1x512.Idx → EReal) (((cfg0.win 2).blk t).view.emb (ix2 (0 : Fin 1) j)) = _
  rw [V_bias]
  obtain ⟨-, -, -, -, -, e5, e6, -⟩ := idx_facts t
  refine congrArg (m ((c : Thread nD τ).loc main_arg2)) (funext fun a => Fin.ext ?_)
  match a with
  | ⟨0, _⟩ => show win0_2.index t (0 : Fin 2) * 1 + 1 * 0 = 0; omega
  | ⟨1, _⟩ => show win0_2.index t (1 : Fin 2) * 512 + 1 * j.val = j.val; omega

/-! ## What point `t` writes back -/

/-- Entry `y` of the block the body leaves at point `t` is the pooled entry at the block's place in the result. -/
theorem point_eq (c : Dev nD) (t : Fin cfg0.N) (y : S8x512.Idx) :
    out0_A_3 (F := Ideal) c (grid0.coords t) (ms0_0 t) (hs0_0 t) (ms0_1 t) (hs0_1 t) (ms0_2 t) (hs0_2 t) (ms0_3 t) (hs0_3 t) (hcond0_0 t) (hcond0_1 t)
        (iblk m c 0 t) (iblk m c 1 t) (iblk m c 2 t) y
      = Cert.Spec.pool (m ((c : Thread nD τ).loc main_arg0)) (m ((c : Thread nD τ).loc main_arg1)) (m ((c : Thread nD τ).loc main_arg2)) (((cfg0.win 3).blk t).view.emb y) := by
  obtain ⟨b, j, rfl⟩ : ∃ (b : Fin 8) (j : Fin 512), y = ix2 b j := ⟨y 0, y 1, eq_ix2 y⟩
  obtain ⟨-, -, -, -, -, -, -, e7, e8⟩ := idx_facts t
  have ht : t.val < 128 := lt_of_lt_of_eq t.isLt N_0
  have hb : b.val < 8 := b.isLt
  have hB : t.val * 8 + b.val < 1024 := by omega
  have hemb : ((cfg0.win 3).blk t).view.emb (ix2 b j) = (ix2 (⟨t.val * 8 + b.val, hB⟩ : Fin 1024) j : S1024x512.Idx) := by
    funext a; apply Fin.ext
    match a with
    | ⟨0, _⟩ => show win0_3.index t (0 : Fin 2) * 8 + 1 * b.val = t.val * 8 + b.val; omega
    | ⟨1, _⟩ => show win0_3.index t (1 : Fin 2) * 512 + 1 * j.val = j.val; omega
  rw [hemb, Cert.Spec.pool_apply]
  refine (block_apply c (grid0.coords t) (ms0_0 t) (hs0_0 t) (ms0_1 t) (hs0_1 t) (ms0_2 t) (hs0_2 t) (ms0_3 t) (hs0_3 t) (hcond0_0 t) (hcond0_1 t)
    (iblk m c 0 t) (iblk m c 1 t) (iblk m c 2 t) b j).trans ?_
  unfold blockVal Cert.Spec.poolAt Cert.Spec.lin
  refine congrArg₂ (fun u v : EReal => max (u + v) 0) ?_ ?_
  · refine congrArg (Finset.sup Finset.univ) (funext fun l => Finset.sum_congr rfl fun k _ => ?_)
    exact congrArg₂ (fun u v : EReal => u * v) (iblk0_apply m c t b l k ⟨t.val * 8 + b.val, hB⟩ rfl) (iblk1_apply m c t k j)
  · exact iblk2_apply m c t j

/-- What point `t` writes back is block `t` of the pooled array. -/
theorem flushed_eq (c : Dev nD) (t : Fin cfg0.N) :
    (dats (F := Ideal) m 0 c).flushed 3 t
      = ((cfg0.win 3).blk t).view.read (Elt Ideal) (Cert.Spec.pool (m ((c : Thread nD τ).loc main_arg0)) (m ((c : Thread nD τ).loc main_arg1)) (m ((c : Thread nD τ).loc main_arg2))) := by
  rw [Value.flushed3_A]
  funext y
  exact point_eq m c t y

/-! ## The blocks tile the result -/

/-- An index of the result is in point `t`'s block iff each coordinate is in the block's range on its axis. -/
theorem mem_blk3 (t : Fin cfg0.N) (i : S1024x512.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v2).slice (win0_3.rect t)).set ↔ _
  rw [View.set_slice_whole, Rect.mem_set_unit]
  exact Iff.rfl

/-- Row r of the result lies in the block of point r / 8. -/
theorem cover3 (i : S1024x512.Idx) : ∃ t : Fin cfg0.N, (cfg0.win 3).flush t = true ∧ i ∈ ((cfg0.win 3).blk t).view.set := by
  have h0 : (i 0).val < 1024 := (i 0).isLt
  have h1 : (i 1).val < 512 := (i 1).isLt
  have hq : (i 0).val / 8 < 128 := by omega
  obtain ⟨t, ht⟩ : ∃ t : Fin cfg0.N, t.val = (i 0).val / 8 := ⟨⟨(i 0).val / 8, lt_of_lt_of_eq hq N_0.symm⟩, rfl⟩
  obtain ⟨-, -, -, -, -, -, -, e7, e8⟩ := idx_facts t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 512 ≤ (i 1).val ∧ (i 1).val < win0_3.index t (1 : Fin 2) * 512 + 512; omega

/-- The result array after the run is the pooled array of the arguments. -/
theorem final (c : Dev nD) :
    (dats (F := Ideal) m 0 c).arrAt 3 cfg0.N = Cert.Spec.pool (m ((c : Thread nD τ).loc main_arg0)) (m ((c : Thread nD τ).loc main_arg1)) (m ((c : Thread nD τ).loc main_arg2)) :=
  (dats (F := Ideal) m 0 c).arrAt_eq_of_cover 3 (Cert.Spec.pool (m ((c : Thread nD τ).loc main_arg0)) (m ((c : Thread nD τ).loc main_arg1)) (m ((c : Thread nD τ).loc main_arg2)))
    (fun t _ => flushed_eq m c t) cover3

/-! ## The run -/

/-- Every weakly fair execution of the reference terminates with the result array the pooled array of the arguments
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2) = Cert.Spec.pool (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.ReferenceIdeal.RefValue

end
-- ==== Proof.lean ====
/-
  The certificate of the sequence-pooling kernel against its reference.

  Both programs compute, for a batch x of 1024 sequences of 128 rows of 512 features, a 512 × 512 weight w and a
  one-row bias,   out[b, j] = max ( (sup over the rows l of Σ_k x[b,l,k]·w[k,j]) + bias[0,j] , 0 )
  (`Cert.Spec.pool`).  The kernel walks the batch in 16 blocks of 64 sequences; each sequence's rows reach it as
  two halves of 64 rows, through two windows on ONE array, and it joins the two halves' suprema by `max` before
  adding the bias.  The reference walks the batch in 128 blocks of 8 sequences and keeps a running maximum per
  sequence, started at -∞, over two chunks of 64 rows, adding the bias at the end.  On the extended reals the
  supremum over 128 rows is the join of the suprema over the two halves, and -∞ is neutral for `max`; the row
  products are the same sums on both sides; so the two results are one function of the arguments, with no
  appeal to finiteness.

  The three frames: the kernel's (at the word level and at the ideal values) is proved against the launch theorem
  for windows that share an array, the shared array's share split between the two windows; the reference's is its
  generated frame.  The ideal pass rewrote nothing, so there is nothing to preserve.
-/
import proofs.«136681_g2000706673400859_pallasbulk_1295_21_alg».proof.Defs
import proofs.«136681_g2000706673400859_pallasbulk_1295_21_alg».proof.Proof.Gen.Kernel
import proofs.«136681_g2000706673400859_pallasbulk_1295_21_alg».proof.Proof.Gen.KernelIdeal
import proofs.«136681_g2000706673400859_pallasbulk_1295_21_alg».proof.Proof.Gen.ReferenceIdeal
import proofs.«136681_g2000706673400859_pallasbulk_1295_21_alg».proof.Proof.Gen.ReferenceIdeal.Frame
import proofs.«136681_g2000706673400859_pallasbulk_1295_21_alg».proof.Proof.Gen.Pre_finite_inputs
import proofs.«136681_g2000706673400859_pallasbulk_1295_21_alg».proof.Proof.KLaunchBits
import proofs.«136681_g2000706673400859_pallasbulk_1295_21_alg».proof.Proof.KFinal
import proofs.«136681_g2000706673400859_pallasbulk_1295_21_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Hand.frame m ρ

/-- So does the kernel read at the ideal values. -/
theorem frame_ki : Cert.frame_KernelIdeal := fun m ρ _ => Cert.KernelIdeal.Hand.frame m ρ

/-- So does the reference. -/
theorem frame_ri : Cert.frame_ReferenceIdeal := fun m ρ _ => Cert.ReferenceIdeal.Gen.frame m ρ

/-- The ideal pass rewrote no operation. -/
theorem preserves : Cert.preserves_Kernel_KernelIdeal := trivial

/-- From memories that agree on the arguments, both programs end with the pooled array of the arguments. -/
theorem algebraic : Cert.algebraic_KernelIdeal_ReferenceIdeal := by
  intro m ρ m' ρ' _ hagree
  refine ⟨fun c => Cert.Spec.pool (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
